-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S16000000 : Shape := ⟨1, ![16000000]⟩
abbrev S1x3 : Shape := ⟨2, ![1, 3]⟩
abbrev S3 : Shape := ⟨1, ![3]⟩
abbrev S3x1 : Shape := ⟨2, ![3, 1]⟩
abbrev S1 : Shape := ⟨1, ![1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S3 : S_.BroadcastsInDim S3 (![] : Fin 0 → Fin S3.rank)
  reducesTo_S3_S_d0 : S3.ReducesTo [0] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S3x1 .f32) (main_arg7 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x1 .f32 := Host.absf main_arg6
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1000000x1 .f32) (main_arg1 : FVec F S1000000x1 .f32) (main_arg2 : IVec S16000000 32) (main_arg3 : IVec S16000000 32) (main_arg4 : FVec F S1x3 .f32) (main_arg5 : FVec F S3 .f32) (main_arg6 : FVec F S3x1 .f32) (main_arg7 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1x3 .f32 := Host.absf main_arg4
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S3 .f32 := Host.absf main_arg5
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg6 main_arg7 main_v13 main_v16
-- ==== Kernel.lean ====
abbrev S1000000x1 : Shape := ⟨2, ![1000000, 1]⟩
abbrev S16000000 : Shape := ⟨1, ![16000000]⟩
abbrev S1x3 : Shape := ⟨2, ![1, 3]⟩
abbrev S3 : Shape := ⟨1, ![3]⟩
abbrev S3x1 : Shape := ⟨2, ![3, 1]⟩
abbrev S1 : Shape := ⟨1, ![1]⟩
abbrev S1x1000000 : Shape := ⟨2, ![1, 1000000]⟩
abbrev S_ : Shape := ⟨0, ![]⟩
abbrev S1x1015808 : Shape := ⟨2, ![1, 1015808]⟩
abbrev S1x32768 : Shape := ⟨2, ![1, 32768]⟩
abbrev S16000000x1 : Shape := ⟨2, ![16000000, 1]⟩
abbrev S1x1 : Shape := ⟨2, ![1, 1]⟩
abbrev S3x1015808 : Shape := ⟨2, ![3, 1015808]⟩
abbrev S3x32768 : Shape := ⟨2, ![3, 32768]⟩
abbrev S3x1000000 : Shape := ⟨2, ![3, 1000000]⟩
abbrev S1000000x3 : Shape := ⟨2, ![1000000, 3]⟩
abbrev S16000000x3 : Shape := ⟨2, ![16000000, 3]⟩

abbrev nBuf : Space → Nat
  | .hbm => 91
  | .vmem => 22
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S16000000, .i32⟩
  | .hbm, ⟨3, _⟩ => ⟨S16000000, .i32⟩
  | .hbm, ⟨4, _⟩ => ⟨S1x3, .f32⟩
  | .hbm, ⟨5, _⟩ => ⟨S3, .f32⟩
  | .hbm, ⟨6, _⟩ => ⟨S3x1, .f32⟩
  | .hbm, ⟨7, _⟩ => ⟨S1, .f32⟩
  | .hbm, ⟨8, _⟩ => ⟨S1x1000000, .f32⟩
  | .hbm, ⟨9, _⟩ => ⟨S1x1000000, .f32⟩
  | .hbm, ⟨10, _⟩ => ⟨S_, .i32⟩
  | .hbm, ⟨11, _⟩ => ⟨S_, .f32⟩
  | .hbm, ⟨12, _⟩ => ⟨S1x1015808, .f32⟩
  | .hbm, ⟨13, _⟩ => ⟨S_, .i32⟩
  | .hbm, ⟨14, _⟩ => ⟨S_, .f32⟩
  | .hbm, ⟨15, _⟩ => ⟨S1x1015808, .f32⟩
  | .hbm, ⟨16, _⟩ => ⟨S1x1015808, .f32⟩
  | .hbm, ⟨17, _⟩ => ⟨S1x1000000, .f32⟩
  | .hbm, ⟨18, _⟩ => ⟨S1000000x1, .f32⟩
  | .hbm, ⟨19, _⟩ => ⟨S_, .i32⟩
  | .hbm, ⟨20, _⟩ => ⟨S16000000, .i32⟩
  | .hbm, ⟨21, _⟩ => ⟨S16000000, .i1⟩
  | .hbm, ⟨22, _⟩ => ⟨S_, .i32⟩
  | .hbm, ⟨23, _⟩ => ⟨S16000000, .i32⟩
  | .hbm, ⟨24, _⟩ => ⟨S16000000, .i32⟩
  | .hbm, ⟨25, _⟩ => ⟨S16000000, .i32⟩
  | .hbm, ⟨26, _⟩ => ⟨S16000000x1, .i32⟩
  | .hbm, ⟨27, _⟩ => ⟨S1, .i32⟩
  | .hbm, ⟨28, _⟩ => ⟨S_, .i32⟩
  | .hbm, ⟨29, _⟩ => ⟨S16000000x1, .i32⟩
  | .hbm, ⟨30, _⟩ => ⟨S16000000x1, .i1⟩
  | .hbm, ⟨31, _⟩ => ⟨S1x1, .i32⟩
  | .hbm, ⟨32, _⟩ => ⟨S16000000x1, .i32⟩
  | .hbm, ⟨33, _⟩ => ⟨S16000000x1, .i1⟩
  | .hbm, ⟨34, _⟩ => ⟨S16000000x1, .i1⟩
  | .hbm, ⟨35, _⟩ => ⟨S_, .i1⟩
  | .hbm, ⟨36, _⟩ => ⟨S16000000, .i1⟩
  | .hbm, ⟨37, _⟩ => ⟨S16000000x1, .f32⟩
  | .hbm, ⟨38, _⟩ => ⟨S16000000x1, .i1⟩
  | .hbm, ⟨39, _⟩ => ⟨S_, .f32⟩
  | .hbm, ⟨40, _⟩ => ⟨S16000000x1, .f32⟩
  | .hbm, ⟨41, _⟩ => ⟨S16000000x1, .f32⟩
  | .hbm, ⟨42, _⟩ => ⟨S_, .f32⟩
  | .hbm, ⟨43, _⟩ => ⟨S1000000x1, .f32⟩
  | .hbm, ⟨44, _⟩ => ⟨S16000000x1, .i32⟩
  | .hbm, ⟨45, _⟩ => ⟨S1000000x1, .f32⟩
  | .hbm, ⟨46, _⟩ => ⟨S1x1000000, .f32⟩
  | .hbm, ⟨47, _⟩ => ⟨S_, .i32⟩
  | .hbm, ⟨48, _⟩ => ⟨S_, .f32⟩
  | .hbm, ⟨49, _⟩ => ⟨S1x1015808, .f32⟩
  | .hbm, ⟨50, _⟩ => ⟨S3x1, .f32⟩
  | .hbm, ⟨51, _⟩ => ⟨S3x1, .f32⟩
  | .hbm, ⟨52, _⟩ => ⟨S3x1015808, .f32⟩
  | .hbm, ⟨53, _⟩ => ⟨S3x1000000, .f32⟩
  | .hbm, ⟨54, _⟩ => ⟨S1000000x3, .f32⟩
  | .hbm, ⟨55, _⟩ => ⟨S_, .i32⟩
  | .hbm, ⟨56, _⟩ => ⟨S16000000, .i32⟩
  | .hbm, ⟨57, _⟩ => ⟨S16000000, .i1⟩
  | .hbm, ⟨58, _⟩ => ⟨S_, .i32⟩
  | .hbm, ⟨59, _⟩ => ⟨S16000000, .i32⟩
  | .hbm, ⟨60, _⟩ => ⟨S16000000, .i32⟩
  | .hbm, ⟨61, _⟩ => ⟨S16000000, .i32⟩
  | .hbm, ⟨62, _⟩ => ⟨S16000000x1, .i32⟩
  | .hbm, ⟨63, _⟩ => ⟨S1, .i32⟩
  | .hbm, ⟨64, _⟩ => ⟨S_, .i32⟩
  | .hbm, ⟨65, _⟩ => ⟨S16000000x1, .i32⟩
  | .hbm, ⟨66, _⟩ => ⟨S16000000x1, .i1⟩
  | .hbm, ⟨67, _⟩ => ⟨S1x1, .i32⟩
  | .hbm, ⟨68, _⟩ => ⟨S16000000x1, .i32⟩
  | .hbm, ⟨69, _⟩ => ⟨S16000000x1, .i1⟩
  | .hbm, ⟨70, _⟩ => ⟨S16000000x1, .i1⟩
  | .hbm, ⟨71, _⟩ => ⟨S_, .i1⟩
  | .hbm, ⟨72, _⟩ => ⟨S16000000, .i1⟩
  | .hbm, ⟨73, _⟩ => ⟨S16000000x3, .f32⟩
  | .hbm, ⟨74, _⟩ => ⟨S16000000x3, .i1⟩
  | .hbm, ⟨75, _⟩ => ⟨S_, .f32⟩
  | .hbm, ⟨76, _⟩ => ⟨S16000000x3, .f32⟩
  | .hbm, ⟨77, _⟩ => ⟨S16000000x3, .f32⟩
  | .hbm, ⟨78, _⟩ => ⟨S_, .f32⟩
  | .hbm, ⟨79, _⟩ => ⟨S1000000x3, .f32⟩
  | .hbm, ⟨80, _⟩ => ⟨S16000000x1, .i32⟩
  | .hbm, ⟨81, _⟩ => ⟨S1000000x3, .f32⟩
  | .hbm, ⟨82, _⟩ => ⟨S3x1000000, .f32⟩
  | .hbm, ⟨83, _⟩ => ⟨S_, .i32⟩
  | .hbm, ⟨84, _⟩ => ⟨S_, .f32⟩
  | .hbm, ⟨85, _⟩ => ⟨S3x1015808, .f32⟩
  | .hbm, ⟨86, _⟩ => ⟨S1x3, .f32⟩
  | .hbm, ⟨87, _⟩ => ⟨S1x1, .f32⟩
  | .hbm, ⟨88, _⟩ => ⟨S1x1015808, .f32⟩
  | .hbm, ⟨89, _⟩ => ⟨S1x1000000, .f32⟩
  | .hbm, ⟨90, _⟩ => ⟨S1000000x1, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S1x32768, .f32⟩
  | .local _ .vmem, ⟨5, _⟩ => ⟨S1x32768, .f32⟩
  | .local _ .vmem, ⟨6, _⟩ => ⟨S1x32768, .f32⟩
  | .local _ .vmem, ⟨7, _⟩ => ⟨S1x32768, .f32⟩
  | .local _ .vmem, ⟨8, _⟩ => ⟨S1x32768, .f32⟩
  | .local _ .vmem, ⟨9, _⟩ => ⟨S1x32768, .f32⟩
  | .local _ .vmem, ⟨10, _⟩ => ⟨S3x1, .f32⟩
  | .local _ .vmem, ⟨11, _⟩ => ⟨S3x1, .f32⟩
  | .local _ .vmem, ⟨12, _⟩ => ⟨S3x32768, .f32⟩
  | .local _ .vmem, ⟨13, _⟩ => ⟨S3x32768, .f32⟩
  | .local _ .vmem, ⟨14, _⟩ => ⟨S3x32768, .f32⟩
  | .local _ .vmem, ⟨15, _⟩ => ⟨S3x32768, .f32⟩
  | .local _ .vmem, ⟨16, _⟩ => ⟨S1x32768, .f32⟩
  | .local _ .vmem, ⟨17, _⟩ => ⟨S1x32768, .f32⟩
  | .local _ .vmem, ⟨18, _⟩ => ⟨S1x3, .f32⟩
  | .local _ .vmem, ⟨19, _⟩ => ⟨S1x1, .f32⟩
  | .local _ .vmem, ⟨20, _⟩ => ⟨S1x32768, .f32⟩
  | .local _ .vmem, ⟨21, _⟩ => ⟨S1x32768, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_v14 : Ref sig .tc := ⟨.hbm, 38, rfl⟩
abbrev main_call2_cst : Ref sig .tc := ⟨.hbm, 39, rfl⟩
abbrev main_call2_v15 : Ref sig .tc := ⟨.hbm, 40, rfl⟩
abbrev main_v7 : Ref sig .tc := ⟨.hbm, 41, rfl⟩
abbrev main_cst : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c_1 : Ref sig .tc := ⟨.hbm, 47, rfl⟩
abbrev main_call3_v0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_c_1 : Ref sig .tc := ⟨.hbm, 63, rfl⟩
abbrev main_call4_c_2 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_c_3 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_call4_cst : Ref sig .tc := ⟨.hbm, 75, rfl⟩
abbrev main_call4_v15 : Ref sig .tc := ⟨.hbm, 76, rfl⟩
abbrev main_v18 : Ref sig .tc := ⟨.hbm, 77, rfl⟩
abbrev main_cst_2 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_c_3 : Ref sig .tc := ⟨.hbm, 83, rfl⟩
abbrev main_call5_v0 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3x32768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![31], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3x32768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x32768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1000000x1_S1x1000000 : S1000000x1.ShapeCasts S1x1000000
  pads_S1x1000000_S1x1015808_000_0158080 : S1x1000000.Pads (![0, 0] : Fin 2 → Nat) ![0, 15808] ![0, 0] S1x1015808
  h_S_ : 0 < S_.numel
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  slices_S1x1015808_S1x1000000_0_0 : S1x1015808.Slices ![0, 0] S1x1000000
  shapeCasts_S1x1000000_S1000000x1 : S1x1000000.ShapeCasts S1000000x1
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  bcast_S_S1000000x1 : S_.BroadcastsInDim S1000000x1 (![] : Fin 0 → Fin S1000000x1.rank)
  transposes_S1x3_S3x1_1_0 : S1x3.Transposes [1, 0] S3x1
  shapeCasts_S3_S3x1 : S3.ShapeCasts S3x1
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  broadcasts_S1x32768_S3x32768 : S1x32768.Broadcasts S3x32768
  inb_S3x32768_S3x32768_0_0 : ∀ a, (![0, 0] : Fin 2 → Nat) a + S3x32768.size a ≤ S3x32768.size a
  h_S3x32768 : 0 < S3x32768.numel
  slices_S3x1015808_S3x1000000_0_0 : S3x1015808.Slices ![0, 0] S3x1000000
  transposes_S3x1000000_S1000000x3_1_0 : S3x1000000.Transposes [1, 0] S1000000x3
  bcast_S16000000_S16000000x3_0 : S16000000.BroadcastsInDim S16000000x3 (![0] : Fin 1 → Fin S16000000x3.rank)
  bcast_S_S16000000x3 : S_.BroadcastsInDim S16000000x3 (![] : Fin 0 → Fin S16000000x3.rank)
  bcast_S_S1000000x3 : S_.BroadcastsInDim S1000000x3 (![] : Fin 0 → Fin S1000000x3.rank)
  transposes_S1000000x3_S3x1000000_1_0 : S1000000x3.Transposes [1, 0] S3x1000000
  pads_S3x1000000_S3x1015808_000_0158080 : S3x1000000.Pads (![0, 0] : Fin 2 → Nat) ![0, 15808] ![0, 0] S3x1015808
  transposes_S3x1_S1x3_1_0 : S3x1.Transposes [1, 0] S1x3
  shapeCasts_S1_S1x1 : S1.ShapeCasts S1x1
  shapeCasts_S3x32768_S3x32768 : S3x32768.ShapeCasts S3x32768
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S1x3_o0_0_S1x1 : S1x3.Slices ![0, 0] S1x1
  slices_S3x32768_o0_0_S1x32768 : S3x32768.Slices ![0, 0] S1x32768
  broadcasts_S1x1_S1x32768 : S1x1.Broadcasts S1x32768
  slices_S1x3_o0_1_S1x1 : S1x3.Slices ![0, 1] S1x1
  slices_S3x32768_o1_0_S1x32768 : S3x32768.Slices ![1, 0] S1x32768
  slices_S1x3_o0_2_S1x1 : S1x3.Slices ![0, 2] S1x1
  slices_S3x32768_o2_0_S1x32768 : S3x32768.Slices ![2, 0] S1x32768
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x1015808.size a
  hwx0_0 : ∀ i : grid0.Coords, EltTy.bits .f32 = 32 ∨ (Rect.block (s := S1x1015808) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x1015808.size a
  hwx0_1 : ∀ i : grid0.Coords, EltTy.bits .f32 = 32 ∨ (Rect.block (s := S1x1015808) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x1015808.size a
  hwx0_2 : ∀ i : grid0.Coords, EltTy.bits .f32 = 32 ∨ (Rect.block (s := S1x1015808) S1x32768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32768.size a ≤ S1x1015808.size a
  hwx1_0 : ∀ i : grid1.Coords, EltTy.bits .f32 = 32 ∨ (Rect.block (s := S1x1015808) S1x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32768.size a ≤ S1x1015808.size a
  hwx1_1 : ∀ i : grid1.Coords, EltTy.bits .f32 = 32 ∨ (Rect.block (s := S1x1015808) S1x32768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x1.size a ≤ S3x1.size a
  hwx1_2 : ∀ i : grid1.Coords, EltTy.bits .f32 = 32 ∨ (Rect.block (s := S3x1) S3x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x1.size a ≤ S3x1.size a
  hwx1_3 : ∀ i : grid1.Coords, EltTy.bits .f32 = 32 ∨ (Rect.block (s := S3x1) S3x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x32768.size a ≤ S3x1015808.size a
  hwx1_4 : ∀ i : grid1.Coords, EltTy.bits .f32 = 32 ∨ (Rect.block (s := S3x1015808) S3x32768.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x32768.size a ≤ S3x1015808.size a
  hwx2_0 : ∀ i : grid2.Coords, EltTy.bits .f32 = 32 ∨ (Rect.block (s := S3x1015808) S3x32768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32768.size a ≤ S1x1015808.size a
  hwx2_1 : ∀ i : grid2.Coords, EltTy.bits .f32 = 32 ∨ (Rect.block (s := S1x1015808) S1x32768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3.size a ≤ S1x3.size a
  hwx2_2 : ∀ i : grid2.Coords, EltTy.bits .f32 = 32 ∨ (Rect.block (s := S1x3) S1x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32768.size a ≤ S1x1015808.size a
  hwx2_4 : ∀ i : grid2.Coords, EltTy.bits .f32 = 32 ∨ (Rect.block (s := S1x1015808) S1x32768.size (cc2_transform_4 i) (hinb2_4 i)).WholeWords (EltTy.packing .f32)

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf

abbrev win0_0 : Pipeline.Window sig grid0 :=
  Pipeline.Window.ofSpec (Memref.whole main_v3) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S3x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S3x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S3x32768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S3x32768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x32768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x32768.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1000000x1 : Shape := ⟨2, ![1000000, 1]⟩
abbrev S16000000 : Shape := ⟨1, ![16000000]⟩
abbrev S1x3 : Shape := ⟨2, ![1, 3]⟩
abbrev S3 : Shape := ⟨1, ![3]⟩
abbrev S3x1 : Shape := ⟨2, ![3, 1]⟩
abbrev S1 : Shape := ⟨1, ![1]⟩
abbrev S_ : Shape := ⟨0, ![]⟩
abbrev S16000000x1 : Shape := ⟨2, ![16000000, 1]⟩
abbrev S1x1 : Shape := ⟨2, ![1, 1]⟩
abbrev S1000000x3 : Shape := ⟨2, ![1000000, 3]⟩
abbrev S16000000x3 : Shape := ⟨2, ![16000000, 3]⟩

abbrev nBuf : Space → Nat
  | .hbm => 82
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S16000000, .i32⟩
  | .hbm, ⟨3, _⟩ => ⟨S16000000, .i32⟩
  | .hbm, ⟨4, _⟩ => ⟨S1x3, .f32⟩
  | .hbm, ⟨5, _⟩ => ⟨S3, .f32⟩
  | .hbm, ⟨6, _⟩ => ⟨S3x1, .f32⟩
  | .hbm, ⟨7, _⟩ => ⟨S1, .f32⟩
  | .hbm, ⟨8, _⟩ => ⟨S1000000x1, .f32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S1, .i32⟩
  | .hbm, ⟨18, _⟩ => ⟨S_, .i32⟩
  | .hbm, ⟨19, _⟩ => ⟨S16000000x1, .i32⟩
  | .hbm, ⟨20, _⟩ => ⟨S16000000x1, .i1⟩
  | .hbm, ⟨21, _⟩ => ⟨S1x1, .i32⟩
  | .hbm, ⟨22, _⟩ => ⟨S16000000x1, .i32⟩
  | .hbm, ⟨23, _⟩ => ⟨S16000000x1, .i1⟩
  | .hbm, ⟨24, _⟩ => ⟨S16000000x1, .i1⟩
  | .hbm, ⟨25, _⟩ => ⟨S_, .i1⟩
  | .hbm, ⟨26, _⟩ => ⟨S16000000, .i1⟩
  | .hbm, ⟨27, _⟩ => ⟨S16000000x1, .f32⟩
  | .hbm, ⟨28, _⟩ => ⟨S16000000x1, .i1⟩
  | .hbm, ⟨29, _⟩ => ⟨S_, .f32⟩
  | .hbm, ⟨30, _⟩ => ⟨S16000000x1, .f32⟩
  | .hbm, ⟨31, _⟩ => ⟨S16000000x1, .f32⟩
  | .hbm, ⟨32, _⟩ => ⟨S_, .f32⟩
  | .hbm, ⟨33, _⟩ => ⟨S1000000x1, .f32⟩
  | .hbm, ⟨34, _⟩ => ⟨S16000000x1, .i32⟩
  | .hbm, ⟨35, _⟩ => ⟨S1000000x1, .f32⟩
  | .hbm, ⟨36, _⟩ => ⟨S1000000x1, .f32⟩
  | .hbm, ⟨37, _⟩ => ⟨S1000000x3, .f32⟩
  | .hbm, ⟨38, _⟩ => ⟨S1x3, .f32⟩
  | .hbm, ⟨39, _⟩ => ⟨S1000000x3, .f32⟩
  | .hbm, ⟨40, _⟩ => ⟨S1000000x3, .f32⟩
  | .hbm, ⟨41, _⟩ => ⟨S_, .f32⟩
  | .hbm, ⟨42, _⟩ => ⟨S1000000x3, .f32⟩
  | .hbm, ⟨43, _⟩ => ⟨S1000000x3, .f32⟩
  | .hbm, ⟨44, _⟩ => ⟨S1000000x3, .f32⟩
  | .hbm, ⟨45, _⟩ => ⟨S1000000x3, .f32⟩
  | .hbm, ⟨46, _⟩ => ⟨S_, .i32⟩
  | .hbm, ⟨47, _⟩ => ⟨S16000000, .i32⟩
  | .hbm, ⟨48, _⟩ => ⟨S16000000, .i1⟩
  | .hbm, ⟨49, _⟩ => ⟨S_, .i32⟩
  | .hbm, ⟨50, _⟩ => ⟨S16000000, .i32⟩
  | .hbm, ⟨51, _⟩ => ⟨S16000000, .i32⟩
  | .hbm, ⟨52, _⟩ => ⟨S16000000, .i32⟩
  | .hbm, ⟨53, _⟩ => ⟨S16000000x1, .i32⟩
  | .hbm, ⟨54, _⟩ => ⟨S1, .i32⟩
  | .hbm, ⟨55, _⟩ => ⟨S_, .i32⟩
  | .hbm, ⟨56, _⟩ => ⟨S16000000x1, .i32⟩
  | .hbm, ⟨57, _⟩ => ⟨S16000000x1, .i1⟩
  | .hbm, ⟨58, _⟩ => ⟨S1x1, .i32⟩
  | .hbm, ⟨59, _⟩ => ⟨S16000000x1, .i32⟩
  | .hbm, ⟨60, _⟩ => ⟨S16000000x1, .i1⟩
  | .hbm, ⟨61, _⟩ => ⟨S16000000x1, .i1⟩
  | .hbm, ⟨62, _⟩ => ⟨S_, .i1⟩
  | .hbm, ⟨63, _⟩ => ⟨S16000000, .i1⟩
  | .hbm, ⟨64, _⟩ => ⟨S16000000x3, .f32⟩
  | .hbm, ⟨65, _⟩ => ⟨S16000000x3, .i1⟩
  | .hbm, ⟨66, _⟩ => ⟨S_, .f32⟩
  | .hbm, ⟨67, _⟩ => ⟨S16000000x3, .f32⟩
  | .hbm, ⟨68, _⟩ => ⟨S16000000x3, .f32⟩
  | .hbm, ⟨69, _⟩ => ⟨S_, .f32⟩
  | .hbm, ⟨70, _⟩ => ⟨S1000000x3, .f32⟩
  | .hbm, ⟨71, _⟩ => ⟨S16000000x1, .i32⟩
  | .hbm, ⟨72, _⟩ => ⟨S1000000x3, .f32⟩
  | .hbm, ⟨73, _⟩ => ⟨S1000000x3, .f32⟩
  | .hbm, ⟨74, _⟩ => ⟨S1000000x3, .f32⟩
  | .hbm, ⟨75, _⟩ => ⟨S1000000x1, .f32⟩
  | .hbm, ⟨76, _⟩ => ⟨S1x1, .f32⟩
  | .hbm, ⟨77, _⟩ => ⟨S1000000x1, .f32⟩
  | .hbm, ⟨78, _⟩ => ⟨S1000000x1, .f32⟩
  | .hbm, ⟨79, _⟩ => ⟨S_, .f32⟩
  | .hbm, ⟨80, _⟩ => ⟨S1000000x1, .f32⟩
  | .hbm, ⟨81, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_cst : Ref sig .tc := ⟨.hbm, 41, rfl⟩
abbrev main_call1_v0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_call3_cst : Ref sig .tc := ⟨.hbm, 79, rfl⟩
abbrev main_call3_v0 : Ref sig .tc := ⟨.hbm, 80, rfl⟩
abbrev main_v23 : Ref sig .tc := ⟨.hbm, 81, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S_S1000000x1 : S_.BroadcastsInDim S1000000x1 (![] : Fin 0 → Fin S1000000x1.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  bcast_S1000000x1_S1000000x3_0_1 : S1000000x1.BroadcastsInDim S1000000x3 (![0, 1] : Fin 2 → Fin S1000000x3.rank)
  bcast_S16000000_S16000000x3_0 : S16000000.BroadcastsInDim S16000000x3 (![0] : Fin 1 → Fin S16000000x3.rank)
  bcast_S_S16000000x3 : S_.BroadcastsInDim S16000000x3 (![] : Fin 0 → Fin S16000000x3.rank)
  bcast_S1x1_S1000000x1_0_1 : S1x1.BroadcastsInDim S1000000x1 (![0, 1] : Fin 2 → Fin S1000000x1.rank)
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  dot_S1000000x1_S1x3_S1000000x3_1_0_0_1_n_n_wf : DotDims.WF S1000000x1 S1x3 S1000000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  dot_S1000000x3_S3x1_S1000000x1_1_0_0_1_n_n_wf : DotDims.WF S1000000x3 S3x1 S1000000x1 [1] [0] [0] [1] [] []

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S1000000x1_S1x3_S1000000x3_1_0_0_1_n_n : DotDims S1000000x1 S1x3 S1000000x3 where
  lhsContracting := [1]
  rhsContracting := [0]
  lhsNonContracting := [0]
  rhsNonContracting := [1]
  lhsBatch := []
  rhsBatch := []
  wf := dot_S1000000x1_S1x3_S1000000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def dot_S1000000x3_S3x1_S1000000x1_1_0_0_1_n_n : DotDims S1000000x3 S3x1 S1000000x1 where
  lhsContracting := [1]
  rhsContracting := [0]
  lhsNonContracting := [0]
  rhsNonContracting := [1]
  lhsBatch := []
  rhsBatch := []
  wf := dot_S1000000x3_S3x1_S1000000x1_1_0_0_1_n_n_wf

class Facts : Prop extends Facts₀ where

variable [Facts]
-- ==== Proof.KerRun.lean ====
/-
  The kernel program's run with its result buffer named.

  The program is three pipelined kernel launches among stretches of host operations. Its buffers' contents at
  every boundary between two segments are a fold from the launch memory: a host stretch applies its operations, a
  launch replaces its arrays by what its write-backs leave. Every weakly fair execution ends with each unscoped
  buffer at the last boundary's contents; read at the result buffer and at the eight arguments, that is the
  statement below (the arguments are written by nothing, so they end as launched).
-/
import proofs.«158613_j3384434230050_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates without a fault; the result buffer ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v28) = W18 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v28 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.KerRun

end
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Region0.lean ====
/-
  The first launch: the padded feature row times the padded normalisation row.

  The launch walks 31 blocks of 32768 columns of three [1, 1015808] arrays; at block t it multiplies the two input
  blocks entry by entry and writes the product to the output's block t. The blocks tile the output array, so after
  the launch the whole output array is the entrywise product of the two input arrays as the launch found them.
-/
import proofs.«158613_j3384434230050_1_alg».proof.Proof.Gen.KernelIdeal.Frame
import proofs.«158613_j3384434230050_1_alg».proof.Proof.LibColBroadcast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The array behind `main_v3` as the launch finds it, at its literal type. -/
abbrev inFeat (c : Dev nD) : FVec Ideal S1x1015808 .f32 := V c main_v3
/-- The array behind `main_v2` as the launch finds it, at its literal type. -/
abbrev inNorm (c : Dev nD) : FVec Ideal S1x1015808 .f32 := V c main_v2

/-- The entrywise product of two rows. -/
def scaled (a0 a1 : FVec Ideal S1x1015808 .f32) : FVec Ideal S1x1015808 .f32 := fun i => a0 i * a1 i

/-- The body's value is the entrywise product of its two loaded blocks. -/
theorem payload (x0 x1 : Vec Ideal S1x32768 .f32) : k0_pay1 x0 x1 = fun y => x0 y * x1 y := by
  unfold k0_pay1
  simp only [shapeCast_self]
  rfl

/-- All three windows sit on block (0, t) at point t. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every column block is some point's. -/
theorem index_onto : ∀ q : Fin 31, ∃ t : Fin cfg0.N, win0_2.index t = ![0, q.val] :=
  (by decide +kernel : ∀ q : Fin 31, ∃ t : Fin grid0.N, win0_2.index t = ![0, q.val])

/-- What point t writes back is block t of the product of the two input arrays. -/
theorem flushed_eq (c : Dev nD) (t : Fin cfg0.N) :
    (dat0 V c).flushed 2 t = ((cfg0.win 2).blk t).view.read (Elt Ideal) (scaled (inFeat V c) (inNorm V c)) := by
  show (cfg0.win 2).cut (grid0.coords t) ((dat0 V c).after 2 t) = _
  rw [after0_2]
  unfold out0_2
  rw [View.canon_unit_zero zeros]
  simp only [View.ld_unit_zero (S := S1x32768) zeros]
  rw [payload]
  obtain ⟨e0, e1, e2, e3⟩ := index_facts t
  funext j
  show inFeat V c (((cfg0.win 0).blk t).view.emb j) * inNorm V c (((cfg0.win 1).blk t).view.emb j)
    = inFeat V c (((cfg0.win 2).blk t).view.emb j) * inNorm V c (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 1 + 1 * (j 0).val = win0_2.index t (0 : Fin 2) * 1 + 1 * (j 0).val; omega
    | ⟨1, _⟩ => show win0_0.index t (1 : Fin 2) * 32768 + 1 * (j 1).val = win0_2.index t (1 : Fin 2) * 32768 + 1 * (j 1).val; omega
  have h1 : ((cfg0.win 1).blk t).view.emb j = ((cfg0.win 2).blk t).view.emb j := by
    funext a; apply Fin.ext
    match a with
    | ⟨0, _⟩ => show win0_1.index t (0 : Fin 2) * 1 + 1 * (j 0).val = win0_2.index t (0 : Fin 2) * 1 + 1 * (j 0).val; omega
    | ⟨1, _⟩ => show win0_1.index t (1 : Fin 2) * 32768 + 1 * (j 1).val = win0_2.index t (1 : Fin 2) * 32768 + 1 * (j 1).val; omega
  rw [h0, h1]

/-- An index of the output array is in point t's block iff each coordinate is in the block's range. -/
theorem mem_blk (t : Fin cfg0.N) (i : S1x1015808.Idx) :
    i ∈ ((cfg0.win 2).blk t).view.set ↔ ∀ a : Fin 2, win0_2.index t a * S1x32768.size a ≤ (i a).val ∧ (i a).val < win0_2.index t a * S1x32768.size a + S1x32768.size a := by
  show i ∈ ((View.whole main_v4).slice (win0_2.rect t)).set ↔ _
  rw [View.set_slice_whole, Rect.mem_set_unit]
  exact Iff.rfl

/-- The 31 blocks tile the output array: column n lies in block n / 32768. -/
theorem covered (i : S1x1015808.Idx) :
    ∃ t : Fin cfg0.N, (cfg0.win 2).flush t = true ∧ i ∈ ((cfg0.win 2).blk t).view.set := by
  have hi0 : (i 0).val < 1 := (i 0).isLt
  have hi1 : (i 1).val < 1015808 := (i 1).isLt
  obtain ⟨t, ht⟩ := index_onto ⟨(i 1).val / 32768, by omega⟩
  have q0 : win0_2.index t (0 : Fin 2) = 0 := congrFun ht 0
  have q1 : win0_2.index t (1 : Fin 2) = (i 1).val / 32768 := congrFun ht 1
  refine ⟨t, flush0_2 t, ?_⟩
  rw [mem_blk]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 32768 ≤ (i 1).val ∧ (i 1).val < win0_2.index t (1 : Fin 2) * 32768 + 32768; omega

/-- After the launch the output array is the product of the two input arrays as the launch found them. -/
theorem final (c : Dev nD) : (dat0 V c).arrAt 2 cfg0.N = scaled (inFeat V c) (inNorm V c) :=
  (dat0 V c).arrAt_eq_of_cover 2 _ (fun t _ => flushed_eq V c t) covered

end Cert.KernelIdeal.Region0

end
-- ==== Proof.Region1.lean ====
/-
  The second launch: the first dense layer on the padded, transposed arrays.

  The launch walks 31 blocks of 32768 columns. Its inputs are the summed messages [1, 1015808], the
  normalisation row [1, 1015808], the transposed weight column [3, 1] and the bias column [3, 1] (the last two
  whole at every point); its output is [3, 1015808]. At column n and output feature q the body computes
  max (w q * (agg n * norm n) + b q) 0 * norm n. The blocks tile the output array, so after the launch the whole
  output array is that function of the four input arrays as the launch found them.
-/
import proofs.«158613_j3384434230050_1_alg».proof.Proof.Gen.KernelIdeal.Frame
import proofs.«158613_j3384434230050_1_alg».proof.Proof.LibColBroadcast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The array behind `main_v12` as the launch finds it, at its literal type. -/
abbrev inAgg (c : Dev nD) : FVec Ideal S1x1015808 .f32 := V c main_v12
/-- The array behind `main_v2` as the launch finds it, at its literal type. -/
abbrev inNorm (c : Dev nD) : FVec Ideal S1x1015808 .f32 := V c main_v2
/-- The array behind `main_v13` as the launch finds it, at its literal type. -/
abbrev inW (c : Dev nD) : FVec Ideal S3x1 .f32 := V c main_v13
/-- The array behind `main_v14` as the launch finds it, at its literal type. -/
abbrev inB (c : Dev nD) : FVec Ideal S3x1 .f32 := V c main_v14

/-- The layer at output feature q and column n. -/
def denseAt (a0 a1 : FVec Ideal S1x1015808 .f32) (a2 a3 : FVec Ideal S3x1 .f32) (q : Fin 3) (n : Fin 1015808) : EReal :=
  max (a2 (ix2 q (0 : Fin 1)) * (a0 (ix2 (0 : Fin 1) n) * a1 (ix2 (0 : Fin 1) n)) + a3 (ix2 q (0 : Fin 1)))
    (Ideal.ofBits .f32 0x00000000#32) * a1 (ix2 (0 : Fin 1) n)

def dense (a0 a1 : FVec Ideal S1x1015808 .f32) (a2 a3 : FVec Ideal S3x1 .f32) : FVec Ideal S3x1015808 .f32 :=
  fun i => denseAt a0 a1 a2 a3 (i 0) (i 1)

/-- The body's value at output feature q and column n of the block. -/
theorem payload (x0 x1 : Vec Ideal S1x32768 .f32) (x2 x3 : Vec Ideal S3x1 .f32) (q : Fin 3) (n : Fin 32768) :
    k1_pay1 x0 x1 x2 x3 (ix2 q n)
      = max (x2 (ix2 q (0 : Fin 1)) * (x0 (ix2 (0 : Fin 1) n) * x1 (ix2 (0 : Fin 1) n)) + x3 (ix2 q (0 : Fin 1)))
          (Ideal.ofBits .f32 0x00000000#32) * x1 (ix2 (0 : Fin 1) n) := by
  unfold k1_pay1
  simp only [shapeCast_self]
  simp only [mulf_apply, maximumf_apply, addf_apply, broadcast_apply]
  rw [Cert.LibColBroadcast.broadcastTo_a1_ab_apply, broadcastTo_1b_ab_apply, Cert.LibColBroadcast.broadcastTo_a1_ab_apply,
    broadcastTo_1b_ab_apply, mulf_apply]
  rfl

/-- Where the windows sit at point t: the three row-blocked windows on block (0, t), the two small ones whole. -/
theorem index_facts : ∀ t : Fin cfg1.N, win1_0.index t (0 : Fin 2) = 0
    ∧ win1_0.index t (1 : Fin 2) = win1_4.index t (1 : Fin 2)
    ∧ win1_1.index t (0 : Fin 2) = 0
    ∧ win1_1.index t (1 : Fin 2) = win1_4.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) ≤ 30 :=
  (by decide +kernel : ∀ t : Fin grid1.N, _)

/-- Every column block is some point's. -/
theorem index_onto : ∀ q : Fin 31, ∃ t : Fin cfg1.N, win1_4.index t = ![0, q.val] :=
  (by decide +kernel : ∀ q : Fin 31, ∃ t : Fin grid1.N, win1_4.index t = ![0, q.val])

/-- What point t writes back is block t of the layer of the four input arrays. -/
theorem flushed_eq (c : Dev nD) (t : Fin cfg1.N) :
    (dat1 V c).flushed 4 t
      = ((cfg1.win 4).blk t).view.read (Elt Ideal) (dense (inAgg V c) (inNorm V c) (inW V c) (inB V c)) := by
  show (cfg1.win 4).cut (grid1.coords t) ((dat1 V c).after 4 t) = _
  rw [after1_4]
  unfold out1_4
  rw [View.canon_unit_zero zeros]
  simp only [View.ld_unit_zero (S := S1x32768) zeros, View.ld_unit_zero (S := S3x1) zeros]
  obtain ⟨e0, e1, e2, e3, e4, e5, e6, e7, e8, e9⟩ := index_facts t
  funext j
  obtain ⟨q, n, rfl⟩ : ∃ (q : Fin 3) (n : Fin 32768), j = ix2 q n := ⟨j 0, j 1, eq_ix2 j⟩
  have hn : n.val < 32768 := n.isLt
  have hq : q.val < 3 := q.isLt
  -- the column of the array under column n of block t
  have hN : win1_4.index t (1 : Fin 2) * 32768 + n.val < 1015808 := by omega
  have h4 : ((cfg1.win 4).blk t).view.emb (ix2 q n) = ix2 q (⟨win1_4.index t (1 : Fin 2) * 32768 + n.val, hN⟩ : Fin 1015808) := by
    funext a; apply Fin.ext
    match a with
    | ⟨0, _⟩ => show win1_4.index t (0 : Fin 2) * 3 + 1 * q.val = q.val; omega
    | ⟨1, _⟩ => show win1_4.index t (1 : Fin 2) * 32768 + 1 * n.val = win1_4.index t (1 : Fin 2) * 32768 + n.val; omega
  have h0 : ((cfg1.win 0).blk t).view.emb (ix2 (0 : Fin 1) n) = ix2 (0 : Fin 1) (⟨win1_4.index t (1 : Fin 2) * 32768 + n.val, hN⟩ : Fin 1015808) := by
    funext a; apply Fin.ext
    match a with
    | ⟨0, _⟩ => show win1_0.index t (0 : Fin 2) * 1 + 1 * 0 = 0; omega
    | ⟨1, _⟩ => show win1_0.index t (1 : Fin 2) * 32768 + 1 * n.val = win1_4.index t (1 : Fin 2) * 32768 + n.val; omega
  have h1 : ((cfg1.win 1).blk t).view.emb (ix2 (0 : Fin 1) n) = ix2 (0 : Fin 1) (⟨win1_4.index t (1 : Fin 2) * 32768 + n.val, hN⟩ : Fin 1015808) := by
    funext a; apply Fin.ext
    match a with
    | ⟨0, _⟩ => show win1_1.index t (0 : Fin 2) * 1 + 1 * 0 = 0; omega
    | ⟨1, _⟩ => show win1_1.index t (1 : Fin 2) * 32768 + 1 * n.val = win1_4.index t (1 : Fin 2) * 32768 + n.val; omega
  have h2 : ((cfg1.win 2).blk t).view.emb (ix2 q (0 : Fin 1)) = ix2 q (0 : Fin 1) := by
    funext a; apply Fin.ext
    match a with
    | ⟨0, _⟩ => show win1_2.index t (0 : Fin 2) * 3 + 1 * q.val = q.val; omega
    | ⟨1, _⟩ => show win1_2.index t (1 : Fin 2) * 1 + 1 * 0 = 0; omega
  have h3 : ((cfg1.win 3).blk t).view.emb (ix2 q (0 : Fin 1)) = ix2 q (0 : Fin 1) := by
    funext a; apply Fin.ext
    match a with
    | ⟨0, _⟩ => show win1_3.index t (0 : Fin 2) * 3 + 1 * q.val = q.val; omega
    | ⟨1, _⟩ => show win1_3.index t (1 : Fin 2) * 1 + 1 * 0 = 0; omega
  refine (payload (iblk1 V c 0 t) (iblk1 V c 1 t) (iblk1 V c 2 t) (iblk1 V c 3 t) q n).trans ?_
  show max (inW V c (((cfg1.win 2).blk t).view.emb (ix2 q (0 : Fin 1))) * (inAgg V c (((cfg1.win 0).blk t).view.emb (ix2 (0 : Fin 1) n)) * inNorm V c (((cfg1.win 1).blk t).view.emb (ix2 (0 : Fin 1) n))) + inB V c (((cfg1.win 3).blk t).view.emb (ix2 q (0 : Fin 1))))
      (Ideal.ofBits .f32 0x00000000#32) * inNorm V c (((cfg1.win 1).blk t).view.emb (ix2 (0 : Fin 1) n))
    = dense (inAgg V c) (inNorm V c) (inW V c) (inB V c) (((cfg1.win 4).blk t).view.emb (ix2 q n))
  rw [h0, h1, h2, h3, h4]
  rfl

/-- An index of the output array is in point t's block iff each coordinate is in the block's range. -/
theorem mem_blk (t : Fin cfg1.N) (i : S3x1015808.Idx) :
    i ∈ ((cfg1.win 4).blk t).view.set ↔ ∀ a : Fin 2, win1_4.index t a * S3x32768.size a ≤ (i a).val ∧ (i a).val < win1_4.index t a * S3x32768.size a + S3x32768.size a := by
  show i ∈ ((View.whole main_v15).slice (win1_4.rect t)).set ↔ _
  rw [View.set_slice_whole, Rect.mem_set_unit]
  exact Iff.rfl

/-- The 31 blocks tile the output array: column n lies in block n / 32768. -/
theorem covered (i : S3x1015808.Idx) :
    ∃ t : Fin cfg1.N, (cfg1.win 4).flush t = true ∧ i ∈ ((cfg1.win 4).blk t).view.set := by
  have hi0 : (i 0).val < 3 := (i 0).isLt
  have hi1 : (i 1).val < 1015808 := (i 1).isLt
  obtain ⟨t, ht⟩ := index_onto ⟨(i 1).val / 32768, by omega⟩
  have q0 : win1_4.index t (0 : Fin 2) = 0 := congrFun ht 0
  have q1 : win1_4.index t (1 : Fin 2) = (i 1).val / 32768 := congrFun ht 1
  refine ⟨t, flush1_4 t, ?_⟩
  rw [mem_blk]
  intro a
  match a with
  | ⟨0, _⟩ => show win1_4.index t (0 : Fin 2) * 3 ≤ (i 0).val ∧ (i 0).val < win1_4.index t (0 : Fin 2) * 3 + 3; omega
  | ⟨1, _⟩ => show win1_4.index t (1 : Fin 2) * 32768 ≤ (i 1).val ∧ (i 1).val < win1_4.index t (1 : Fin 2) * 32768 + 32768; omega

/-- After the launch the output array is the layer of the four input arrays as the launch found them. -/
theorem final (c : Dev nD) :
    (dat1 V c).arrAt 4 cfg1.N = dense (inAgg V c) (inNorm V c) (inW V c) (inB V c) :=
  (dat1 V c).arrAt_eq_of_cover 4 _ (fun t _ => flushed_eq V c t) covered

end Cert.KernelIdeal.Region1

end
-- ==== Proof.Region2.lean ====
/-
  The third launch: the second dense layer on the padded, transposed arrays.

  The launch walks 31 blocks of 32768 columns. Its inputs are the summed messages [3, 1015808], the
  normalisation row [1, 1015808], the transposed weight row [1, 3] and the bias [1, 1] (the last two whole at every
  point); its output is [1, 1015808]. At column n the body computes
  max (((w 0 * (agg 0 n * norm n) + w 1 * (agg 1 n * norm n)) + w 2 * (agg 2 n * norm n)) + b) 0.
  The blocks tile the output array, so after the launch the whole output array is that function of the four input
  arrays as the launch found them.
-/
import proofs.«158613_j3384434230050_1_alg».proof.Proof.Gen.KernelIdeal.Frame
import proofs.«158613_j3384434230050_1_alg».proof.Proof.LibColBroadcast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the contents of the TensorCore's buffers when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The array behind `main_v23` as the launch finds it, at its literal type. -/
abbrev inAgg (c : Dev nD) : FVec Ideal S3x1015808 .f32 := V c main_v23
/-- The array behind `main_v2` as the launch finds it, at its literal type. -/
abbrev inNorm (c : Dev nD) : FVec Ideal S1x1015808 .f32 := V c main_v2
/-- The array behind `main_v24` as the launch finds it, at its literal type. -/
abbrev inW (c : Dev nD) : FVec Ideal S1x3 .f32 := V c main_v24
/-- The array behind `main_v25` as the launch finds it, at its literal type. -/
abbrev inB (c : Dev nD) : FVec Ideal S1x1 .f32 := V c main_v25

/-- The layer at column n. -/
def denseAt (a0 : FVec Ideal S3x1015808 .f32) (a1 : FVec Ideal S1x1015808 .f32) (a2 : FVec Ideal S1x3 .f32)
    (a3 : FVec Ideal S1x1 .f32) (n : Fin 1015808) : EReal :=
  max (((a2 (ix2 (0 : Fin 1) (0 : Fin 3)) * (a0 (ix2 (0 : Fin 3) n) * a1 (ix2 (0 : Fin 1) n))
        + a2 (ix2 (0 : Fin 1) (1 : Fin 3)) * (a0 (ix2 (1 : Fin 3) n) * a1 (ix2 (0 : Fin 1) n)))
        + a2 (ix2 (0 : Fin 1) (2 : Fin 3)) * (a0 (ix2 (2 : Fin 3) n) * a1 (ix2 (0 : Fin 1) n)))
        + a3 (ix2 (0 : Fin 1) (0 : Fin 1)))
    (Ideal.ofBits .f32 0x00000000#32)

def dense (a0 : FVec Ideal S3x1015808 .f32) (a1 : FVec Ideal S1x1015808 .f32) (a2 : FVec Ideal S1x3 .f32)
    (a3 : FVec Ideal S1x1 .f32) : FVec Ideal S1x1015808 .f32 :=
  fun i => denseAt a0 a1 a2 a3 (i 1)

/-- The body's value at column n of the block. -/
theorem payload (x0 : Vec Ideal S3x32768 .f32) (x1 : Vec Ideal S1x32768 .f32) (x2 : Vec Ideal S1x3 .f32)
    (x3 : Vec Ideal S1x1 .f32) (n : Fin 32768) :
    k2_pay1 x0 x1 x2 x3 (ix2 (0 : Fin 1) n)
      = max (((x2 (ix2 (0 : Fin 1) (0 : Fin 3)) * (x0 (ix2 (0 : Fin 3) n) * x1 (ix2 (0 : Fin 1) n))
          + x2 (ix2 (0 : Fin 1) (1 : Fin 3)) * (x0 (ix2 (1 : Fin 3) n) * x1 (ix2 (0 : Fin 1) n)))
          + x2 (ix2 (0 : Fin 1) (2 : Fin 3)) * (x0 (ix2 (2 : Fin 3) n) * x1 (ix2 (0 : Fin 1) n)))
          + x3 (ix2 (0 : Fin 1) (0 : Fin 1)))
        (Ideal.ofBits .f32 0x00000000#32) := by
  unfold k2_pay1
  simp only [shapeCast_self]
  simp only [mulf_apply, maximumf_apply, addf_apply, broadcast_apply]
  rw [Cert.LibColBroadcast.broadcastTo_a1_ab_apply, Cert.LibColBroadcast.broadcastTo_a1_ab_apply,
    Cert.LibColBroadcast.broadcastTo_a1_ab_apply, Cert.LibColBroadcast.broadcastTo_a1_ab_apply]
  rw [slice2_axis1_apply 0 x2 _ (0 : Fin 1) (0 : Fin 1) (0 : Fin 3) rfl,
    slice2_axis1_apply 1 x2 _ (0 : Fin 1) (0 : Fin 1) (1 : Fin 3) rfl,
    slice2_axis1_apply 2 x2 _ (0 : Fin 1) (0 : Fin 1) (2 : Fin 3) rfl]
  rw [slice2_axis0_apply 0 _ _ (0 : Fin 1) n (0 : Fin 3) rfl,
    slice2_axis0_apply 1 _ _ (0 : Fin 1) n (1 : Fin 3) rfl,
    slice2_axis0_apply 2 _ _ (0 : Fin 1) n (2 : Fin 3) rfl]
  simp only [mulf_apply]
  rw [broadcastTo_1b_ab_apply, broadcastTo_1b_ab_apply, broadcastTo_1b_ab_apply]
  rfl

/-- Where the windows sit at point t: the three row-blocked windows on block (0, t), the two small ones whole. -/
theorem index_facts : ∀ t : Fin cfg2.N, win2_0.index t (0 : Fin 2) = 0
    ∧ win2_0.index t (1 : Fin 2) = win2_4.index t (1 : Fin 2)
    ∧ win2_1.index t (0 : Fin 2) = 0
    ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) ≤ 30 :=
  (by decide +kernel : ∀ t : Fin grid2.N, _)

/-- Every column block is some point's. -/
theorem index_onto : ∀ q : Fin 31, ∃ t : Fin cfg2.N, win2_4.index t = ![0, q.val] :=
  (by decide +kernel : ∀ q : Fin 31, ∃ t : Fin grid2.N, win2_4.index t = ![0, q.val])

/-- What point t writes back is block t of the layer of the four input arrays. -/
theorem flushed_eq (c : Dev nD) (t : Fin cfg2.N) :
    (dat2 V c).flushed 4 t
      = ((cfg2.win 4).blk t).view.read (Elt Ideal) (dense (inAgg V c) (inNorm V c) (inW V c) (inB V c)) := by
  show (cfg2.win 4).cut (grid2.coords t) ((dat2 V c).after 4 t) = _
  rw [after2_4]
  unfold out2_4
  rw [View.canon_unit_zero zeros]
  simp only [View.ld_unit_zero (S := S3x32768) zeros, View.ld_unit_zero (S := S1x32768) zeros,
    View.ld_unit_zero (S := S1x3) zeros, View.ld_unit_zero (S := S1x1) zeros]
  obtain ⟨e0, e1, e2, e3, e4, e5, e6, e7, e8, e9⟩ := index_facts t
  funext j
  obtain ⟨z, n, rfl⟩ : ∃ (z : Fin 1) (n : Fin 32768), j = ix2 z n := ⟨j 0, j 1, eq_ix2 j⟩
  obtain rfl : z = 0 := Subsingleton.elim _ _
  have hn : n.val < 32768 := n.isLt
  have hN : win2_4.index t (1 : Fin 2) * 32768 + n.val < 1015808 := by omega
  have h4 : ((cfg2.win 4).blk t).view.emb (ix2 (0 : Fin 1) n) = ix2 (0 : Fin 1) (⟨win2_4.index t (1 : Fin 2) * 32768 + n.val, hN⟩ : Fin 1015808) := by
    funext a; apply Fin.ext
    match a with
    | ⟨0, _⟩ => show win2_4.index t (0 : Fin 2) * 1 + 1 * 0 = 0; omega
    | ⟨1, _⟩ => show win2_4.index t (1 : Fin 2) * 32768 + 1 * n.val = win2_4.index t (1 : Fin 2) * 32768 + n.val; omega
  have h0 : ∀ k : Fin 3, ((cfg2.win 0).blk t).view.emb (ix2 k n) = ix2 k (⟨win2_4.index t (1 : Fin 2) * 32768 + n.val, hN⟩ : Fin 1015808) := by
    intro k
    funext a; apply Fin.ext
    match a with
    | ⟨0, _⟩ => show win2_0.index t (0 : Fin 2) * 3 + 1 * k.val = k.val; omega
    | ⟨1, _⟩ => show win2_0.index t (1 : Fin 2) * 32768 + 1 * n.val = win2_4.index t (1 : Fin 2) * 32768 + n.val; omega
  have h1 : ((cfg2.win 1).blk t).view.emb (ix2 (0 : Fin 1) n) = ix2 (0 : Fin 1) (⟨win2_4.index t (1 : Fin 2) * 32768 + n.val, hN⟩ : Fin 1015808) := by
    funext a; apply Fin.ext
    match a with
    | ⟨0, _⟩ => show win2_1.index t (0 : Fin 2) * 1 + 1 * 0 = 0; omega
    | ⟨1, _⟩ => show win2_1.index t (1 : Fin 2) * 32768 + 1 * n.val = win2_4.index t (1 : Fin 2) * 32768 + n.val; omega
  have h2 : ∀ k : Fin 3, ((cfg2.win 2).blk t).view.emb (ix2 (0 : Fin 1) k) = ix2 (0 : Fin 1) k := by
    intro k
    funext a; apply Fin.ext
    match a with
    | ⟨0, _⟩ => show win2_2.index t (0 : Fin 2) * 1 + 1 * 0 = 0; omega
    | ⟨1, _⟩ => show win2_2.index t (1 : Fin 2) * 3 + 1 * k.val = k.val; omega
  have h3 : ((cfg2.win 3).blk t).view.emb (ix2 (0 : Fin 1) (0 : Fin 1)) = ix2 (0 : Fin 1) (0 : Fin 1) := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  refine (payload (iblk2 V c 0 t) (iblk2 V c 1 t) (iblk2 V c 2 t) (iblk2 V c 3 t) n).trans ?_
  show max (((inW V c (((cfg2.win 2).blk t).view.emb (ix2 (0 : Fin 1) (0 : Fin 3))) * (inAgg V c (((cfg2.win 0).blk t).view.emb (ix2 (0 : Fin 3) n)) * inNorm V c (((cfg2.win 1).blk t).view.emb (ix2 (0 : Fin 1) n)))
        + inW V c (((cfg2.win 2).blk t).view.emb (ix2 (0 : Fin 1) (1 : Fin 3))) * (inAgg V c (((cfg2.win 0).blk t).view.emb (ix2 (1 : Fin 3) n)) * inNorm V c (((cfg2.win 1).blk t).view.emb (ix2 (0 : Fin 1) n))))
        + inW V c (((cfg2.win 2).blk t).view.emb (ix2 (0 : Fin 1) (2 : Fin 3))) * (inAgg V c (((cfg2.win 0).blk t).view.emb (ix2 (2 : Fin 3) n)) * inNorm V c (((cfg2.win 1).blk t).view.emb (ix2 (0 : Fin 1) n))))
        + inB V c (((cfg2.win 3).blk t).view.emb (ix2 (0 : Fin 1) (0 : Fin 1))))
      (Ideal.ofBits .f32 0x00000000#32)
    = dense (inAgg V c) (inNorm V c) (inW V c) (inB V c) (((cfg2.win 4).blk t).view.emb (ix2 (0 : Fin 1) n))
  rw [h0, h0, h0, h1, h2, h2, h2, h3, h4]
  rfl

/-- An index of the output array is in point t's block iff each coordinate is in the block's range. -/
theorem mem_blk (t : Fin cfg2.N) (i : S1x1015808.Idx) :
    i ∈ ((cfg2.win 4).blk t).view.set ↔ ∀ a : Fin 2, win2_4.index t a * S1x32768.size a ≤ (i a).val ∧ (i a).val < win2_4.index t a * S1x32768.size a + S1x32768.size a := by
  show i ∈ ((View.whole main_v26).slice (win2_4.rect t)).set ↔ _
  rw [View.set_slice_whole, Rect.mem_set_unit]
  exact Iff.rfl

/-- The 31 blocks tile the output array: column n lies in block n / 32768. -/
theorem covered (i : S1x1015808.Idx) :
    ∃ t : Fin cfg2.N, (cfg2.win 4).flush t = true ∧ i ∈ ((cfg2.win 4).blk t).view.set := by
  have hi0 : (i 0).val < 1 := (i 0).isLt
  have hi1 : (i 1).val < 1015808 := (i 1).isLt
  obtain ⟨t, ht⟩ := index_onto ⟨(i 1).val / 32768, by omega⟩
  have q0 : win2_4.index t (0 : Fin 2) = 0 := congrFun ht 0
  have q1 : win2_4.index t (1 : Fin 2) = (i 1).val / 32768 := congrFun ht 1
  refine ⟨t, flush2_4 t, ?_⟩
  rw [mem_blk]
  intro a
  match a with
  | ⟨0, _⟩ => show win2_4.index t (0 : Fin 2) * 1 ≤ (i 0).val ∧ (i 0).val < win2_4.index t (0 : Fin 2) * 1 + 1; omega
  | ⟨1, _⟩ => show win2_4.index t (1 : Fin 2) * 32768 ≤ (i 1).val ∧ (i 1).val < win2_4.index t (1 : Fin 2) * 32768 + 32768; omega

/-- After the launch the output array is the layer of the four input arrays as the launch found them. -/
theorem final (c : Dev nD) :
    (dat2 V c).arrAt 4 cfg2.N = dense (inAgg V c) (inNorm V c) (inW V c) (inB V c) :=
  (dat2 V c).arrAt_eq_of_cover 4 _ (fun t _ => flushed_eq V c t) covered

end Cert.KernelIdeal.Region2

end
-- ==== Proof.Spec.lean ====
/-
  The two-layer graph convolution as one function of its inputs.

  A node's feature is scaled by the node's normalisation factor; every edge carries its source node's scaled
  feature to its destination node, where the arriving values are summed; the sum is scaled again, sent through an
  affine map and clipped below at zero. The first layer maps one feature to three, the second three to one; between
  the layers the clipped value is scaled once more (the second layer's own first scaling).

  The carrying and the summing along the edges (a gather by the edges' sources followed by a sum by the edges'
  destinations) are the same array functions in both programs, so they enter here as parameters: `T1`, `T3` carry
  node rows to edges, `A1`, `A3` sum edge rows at nodes. What is spelt out is the per-node arithmetic only.
-/
import Idealize.ShloMosaic.PureOps.Ideal
import Idealize.ShloMosaic.Lib.ValueIdx

noncomputable section

open scoped BigOperators

namespace Cert.GcnSpec

open Idealize.ShloMosaic Idealize.ShloMosaic.ValueIdx

/-- Node arrays of one and of three features, edge arrays of one and of three features, the two weight matrices and
    the two bias vectors. -/
abbrev N1 : Shape := ⟨2, ![1000000, 1]⟩
abbrev N3 : Shape := ⟨2, ![1000000, 3]⟩
abbrev E1 : Shape := ⟨2, ![16000000, 1]⟩
abbrev E3 : Shape := ⟨2, ![16000000, 3]⟩
abbrev W13 : Shape := ⟨2, ![1, 3]⟩
abbrev W31 : Shape := ⟨2, ![3, 1]⟩
abbrev B3 : Shape := ⟨1, ![3]⟩
abbrev B1 : Shape := ⟨1, ![1]⟩

/-- The number the 32-bit word of zeros denotes (it is zero; the proofs never need to know). -/
def zeroW : EReal := Ideal.ofBits .f32 0x00000000#32

/-- A node's feature times its normalisation factor. -/
def pre (feat norm : FVec Ideal N1 .f32) : FVec Ideal N1 .f32 := fun i => feat i * norm i

/-- The first layer at node `p`, output feature `q`: the summed messages scaled, times the weight, plus the bias,
    clipped at zero, and scaled for the next layer. -/
def layer1At (agg norm : FVec Ideal N1 .f32) (W : FVec Ideal W13 .f32) (b : FVec Ideal B3 .f32)
    (p : Fin 1000000) (q : Fin 3) : EReal :=
  max (agg (ix2 p (0 : Fin 1)) * norm (ix2 p (0 : Fin 1)) * W (ix2 (0 : Fin 1) q) + b (ix1 q)) zeroW
    * norm (ix2 p (0 : Fin 1))

def layer1 (agg norm : FVec Ideal N1 .f32) (W : FVec Ideal W13 .f32) (b : FVec Ideal B3 .f32) : FVec Ideal N3 .f32 :=
  fun j => layer1At agg norm W b (j 0) (j 1)

/-- The second layer at node `p`: the three summed message features, each scaled and weighted, added up, plus the
    bias, clipped at zero. -/
def layer2At (agg : FVec Ideal N3 .f32) (norm : FVec Ideal N1 .f32) (W : FVec Ideal W31 .f32) (b : FVec Ideal B1 .f32)
    (p : Fin 1000000) : EReal :=
  max ((∑ k : Fin 3, agg (ix2 p k) * norm (ix2 p (0 : Fin 1)) * W (ix2 k (0 : Fin 1))) + b (ix1 (0 : Fin 1))) zeroW

def layer2 (agg : FVec Ideal N3 .f32) (norm : FVec Ideal N1 .f32) (W : FVec Ideal W31 .f32) (b : FVec Ideal B1 .f32) :
    FVec Ideal N1 .f32 :=
  fun i => layer2At agg norm W b (i 0)

/-- The whole network: `T1`, `T3` carry node rows to the edges, `A1`, `A3` sum edge rows at the nodes. -/
def G (T1 : FVec Ideal N1 .f32 → FVec Ideal E1 .f32) (A1 : FVec Ideal E1 .f32 → FVec Ideal N1 .f32)
    (T3 : FVec Ideal N3 .f32 → FVec Ideal E3 .f32) (A3 : FVec Ideal E3 .f32 → FVec Ideal N3 .f32)
    (feat norm : FVec Ideal N1 .f32) (W1 : FVec Ideal W13 .f32) (b1 : FVec Ideal B3 .f32)
    (W2 : FVec Ideal W31 .f32) (b2 : FVec Ideal B1 .f32) : FVec Ideal N1 .f32 :=
  layer2 (A3 (T3 (layer1 (A1 (T1 (pre feat norm))) norm W1 b1))) norm W2 b2

end Cert.GcnSpec

end
-- ==== Proof.LibRowColumn.lean ====
/-
  Rows, columns and right padding read at an entry.

  A [1, a] row and an [a, 1] column hold the same a entries in the same row-major order, so a reshape between them
  reads entry p of the one at entry p of the other; an [a] vector stood up as an [a, 1] column likewise. A matrix
  padded on the right of its second axis (no low padding, no interior padding) reads, at a column below the
  original width, the original entry.

  * `shapeCast_1a_a1_apply`   a [1, a] row cast to an [a, 1] column, at (p, 0): the row at (0, p);
  * `shapeCast_a1_1a_apply`   an [a, 1] column cast to a [1, a] row, at (0, p): the column at (p, 0);
  * `shapeCast_a_a1_apply`    an [a] vector cast to an [a, 1] column, at (p, 0): the vector at p;
  * `pad_right_apply`         an [r, a] matrix padded to [r, b] on the right, at (q, k) with k < a: the matrix at (q, k).
-/
import Idealize.ShloMosaic.Lib.Pipeline.Value
import Idealize.ShloMosaic.Lib.ValueIdx
import Idealize.ShloMosaic.Lib.KernelVsHost

namespace Cert.LibRowColumn

open Idealize.ShloMosaic Idealize.ShloMosaic.ValueIdx

variable {α : Type}

/-- A row cast to a column reads, at (p, 0), the row at (0, p). -/
theorem shapeCast_1a_a1_apply {a : ℕ} (x : (⟨2, ![1, a]⟩ : Shape).Idx → α)
    (h : (⟨2, ![1, a]⟩ : Shape).ShapeCasts ⟨2, ![a, 1]⟩) (p : Fin a) :
    shapeCast ⟨2, ![a, 1]⟩ x h (ix2 p (0 : Fin 1)) = x (ix2 (0 : Fin 1) p) :=
  shapeCast_apply x h _ _ (by
    rw [Shape.rowMajor_val_two, Shape.rowMajor_val_two]
    show 0 * a + p.val = p.val * 1 + 0
    omega)

/-- A column cast to a row reads, at (0, p), the column at (p, 0). -/
theorem shapeCast_a1_1a_apply {a : ℕ} (x : (⟨2, ![a, 1]⟩ : Shape).Idx → α)
    (h : (⟨2, ![a, 1]⟩ : Shape).ShapeCasts ⟨2, ![1, a]⟩) (p : Fin a) :
    shapeCast ⟨2, ![1, a]⟩ x h (ix2 (0 : Fin 1) p) = x (ix2 p (0 : Fin 1)) :=
  shapeCast_apply x h _ _ (by
    rw [Shape.rowMajor_val_two, Shape.rowMajor_val_two]
    show p.val * 1 + 0 = 0 * a + p.val
    omega)

/-- A vector stood up as a column reads, at (p, 0), the vector at p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- A matrix padded on the right reads, at a column below the original width, the original entry. -/
theorem pad_right_apply {r a b e : ℕ} (x : (⟨2, ![r, a]⟩ : Shape).Idx → α) {u : Shape} (v : u.Idx → α)
    (h : (⟨2, ![r, a]⟩ : Shape).Pads ![0, 0] ![0, e] ![0, 0] ⟨2, ![r, b]⟩) (hu : 0 < u.numel)
    (q : Fin r) (k : Fin b) (k' : Fin a) (hk : k'.val = k.val) :
    pad ⟨2, ![r, b]⟩ ![0, 0] ![0, e] ![0, 0] x v h hu (ix2 q k) = x (ix2 q k') :=
  pad_apply_of_inside _ _ _ x v h hu _ _ (fun ax => by
    match ax with
    | ⟨0, _⟩ => show q.val = 0 + q.val * (0 + 1); omega
    | ⟨1, _⟩ => show k.val = 0 + k'.val * (0 + 1); omega)

end Cert.LibRowColumn
-- ==== Proof.KerLayers.lean ====
/-
  The kernel program's array bookkeeping around its three launches, and what each launch then computes.

  The node arrays live transposed and padded inside the launches: an [N, 1] column becomes a [1, N] row (the same
  entries in the same order), is padded on the right to 31 blocks of 32768 columns, and after the launch the first N
  columns are cut out again and turned back into a column; an [N, 3] array is transposed to [3, N], padded, and
  transposed back. None of this moves an entry of a node anywhere but to the same node, and the padding columns
  never reach the result (they are cut away). So each launch, wrapped in its bookkeeping, is one layer of the
  specification:
  * `layer0`: the product of features and normalisation factors;
  * `layer1`: the first dense layer (its weight on the left of the product where the specification has it on the
    right: products of extended reals commute);
  * `layer2`: the second dense layer (its three weighted terms added left to right: that is the sum over the three
    features).
  Also here: the gather by the edges' sources and the sum by the edges' destinations, as the compositions of host
  operations the program applies, kept as they are.
-/
import proofs.«158613_j3384434230050_1_alg».proof.Proof.Gen.KernelIdeal
import proofs.«158613_j3384434230050_1_alg».proof.Proof.Region0
import proofs.«158613_j3384434230050_1_alg».proof.Proof.Region1
import proofs.«158613_j3384434230050_1_alg».proof.Proof.Region2
import proofs.«158613_j3384434230050_1_alg».proof.Proof.Spec
import proofs.«158613_j3384434230050_1_alg».proof.Proof.LibRowColumn
import Idealize.ShloMosaic.Lib.ValueIdx
import Idealize.ShloMosaic.Lib.ValueLayout
import Idealize.ShloMosaic.Lib.KernelVsHost

noncomputable section

open scoped BigOperators

namespace Cert.KernelIdeal.KerLayers

open Cert.KernelIdeal Cert.KernelIdeal.Gen
open Idealize.ShloMosaic Idealize.ShloMosaic.ValueIdx Cert.LibRowColumn

/-! ## The layout operations -/

/-- A node column as a row, and back. -/
def rowOf (x : FVec Ideal S1000000x1 .f32) : FVec Ideal S1x1000000 .f32 :=
  shapeCast S1x1000000 x shapeCasts_S1000000x1_S1x1000000
def colOf (x : FVec Ideal S1x1000000 .f32) : FVec Ideal S1000000x1 .f32 :=
  shapeCast S1000000x1 x shapeCasts_S1x1000000_S1000000x1
/-- The value the padding columns hold (the integer zero converted; it never reaches the result). -/
def padVal : FVec Ideal S_ .f32 := sitofp (F := Ideal) .f32 (constantI S_ 32 0#32)
/-- Padding on the right up to 31 blocks of 32768 columns, for one row and for three. -/
def padRow (x : FVec Ideal S1x1000000 .f32) : FVec Ideal S1x1015808 .f32 :=
  pad S1x1015808 ![0, 0] ![0, 15808] ![0, 0] x padVal pads_S1x1000000_S1x1015808_000_0158080 h_S_
def padRows (x : FVec Ideal S3x1000000 .f32) : FVec Ideal S3x1015808 .f32 :=
  pad S3x1015808 ![0, 0] ![0, 15808] ![0, 0] x padVal pads_S3x1000000_S3x1015808_000_0158080 h_S_
/-- The first N columns cut out again. -/
def cutRow (x : FVec Ideal S1x1015808 .f32) : FVec Ideal S1x1000000 .f32 :=
  extractStridedSlice S1x1000000 ![0, 0] x slices_S1x1015808_S1x1000000_0_0
def cutRows (x : FVec Ideal S3x1015808 .f32) : FVec Ideal S3x1000000 .f32 :=
  extractStridedSlice S3x1000000 ![0, 0] x slices_S3x1015808_S3x1000000_0_0
/-- Transposes between [3, N] and [N, 3]. -/
def toNodes (x : FVec Ideal S3x1000000 .f32) : FVec Ideal S1000000x3 .f32 :=
  transpose S1000000x3 [1, 0] x transposes_S3x1000000_S1000000x3_1_0
def toRows (x : FVec Ideal S1000000x3 .f32) : FVec Ideal S3x1000000 .f32 :=
  transpose S3x1000000 [1, 0] x transposes_S1000000x3_S3x1000000_1_0
/-- The weights transposed and the biases stood up, as the launches take them. -/
def w1T (W : FVec Ideal S1x3 .f32) : FVec Ideal S3x1 .f32 := transpose S3x1 [1, 0] W transposes_S1x3_S3x1_1_0
def b1Col (b : FVec Ideal S3 .f32) : FVec Ideal S3x1 .f32 := shapeCast S3x1 b shapeCasts_S3_S3x1
def w2T (W : FVec Ideal S3x1 .f32) : FVec Ideal S1x3 .f32 := transpose S1x3 [1, 0] W transposes_S3x1_S1x3_1_0
def b2Cell (b : FVec Ideal S1 .f32) : FVec Ideal S1x1 .f32 := shapeCast S1x1 b shapeCasts_S1_S1x1

/-- Node p's column among the padded columns. -/
abbrev wide (p : Fin 1000000) : Fin 1015808 := ⟨p.val, by have := p.isLt; omega⟩

theorem rowOf_at (x : FVec Ideal S1000000x1 .f32) (p : Fin 1000000) :
    rowOf x (ix2 (0 : Fin 1) p) = x (ix2 p (0 : Fin 1)) := shapeCast_a1_1a_apply x _ p
theorem colOf_at (x : FVec Ideal S1x1000000 .f32) (p : Fin 1000000) :
    colOf x (ix2 p (0 : Fin 1)) = x (ix2 (0 : Fin 1) p) := shapeCast_1a_a1_apply x _ p
theorem padRow_at (x : FVec Ideal S1x1000000 .f32) (p : Fin 1000000) :
    padRow x (ix2 (0 : Fin 1) (wide p)) = x (ix2 (0 : Fin 1) p) := pad_right_apply x _ _ _ (0 : Fin 1) (wide p) p rfl
theorem padRows_at (x : FVec Ideal S3x1000000 .f32) (q : Fin 3) (p : Fin 1000000) :
    padRows x (ix2 q (wide p)) = x (ix2 q p) := pad_right_apply x _ _ _ q (wide p) p rfl
theorem cutRow_at (x : FVec Ideal S1x1015808 .f32) (p : Fin 1000000) :
    cutRow x (ix2 (0 : Fin 1) p) = x (ix2 (0 : Fin 1) (wide p)) :=
  slice2_axis1_apply 0 x _ (0 : Fin 1) p (wide p) (Nat.zero_add _).symm
theorem cutRows_at (x : FVec Ideal S3x1015808 .f32) (q : Fin 3) (p : Fin 1000000) :
    cutRows x (ix2 q p) = x (ix2 q (wide p)) :=
  slice2_axis1_apply 0 x _ q p (wide p) (Nat.zero_add _).symm
theorem toNodes_at (x : FVec Ideal S3x1000000 .f32) (p : Fin 1000000) (q : Fin 3) :
    toNodes x (ix2 p q) = x (ix2 q p) := transpose_ix2_apply x _ p q
theorem toRows_at (x : FVec Ideal S1000000x3 .f32) (q : Fin 3) (p : Fin 1000000) :
    toRows x (ix2 q p) = x (ix2 p q) := transpose_ix2_apply x _ q p
theorem w1T_at (W : FVec Ideal S1x3 .f32) (q : Fin 3) : w1T W (ix2 q (0 : Fin 1)) = W (ix2 (0 : Fin 1) q) :=
  transpose_ix2_apply W _ q (0 : Fin 1)
theorem b1Col_at (b : FVec Ideal S3 .f32) (q : Fin 3) : b1Col b (ix2 q (0 : Fin 1)) = b (ix1 q) :=
  shapeCast_a_a1_apply b _ q
theorem w2T_at (W : FVec Ideal S3x1 .f32) (k : Fin 3) : w2T W (ix2 (0 : Fin 1) k) = W (ix2 k (0 : Fin 1)) :=
  transpose_ix2_apply W _ (0 : Fin 1) k
theorem b2Cell_at (b : FVec Ideal S1 .f32) : b2Cell b (ix2 (0 : Fin 1) (0 : Fin 1)) = b (ix1 (0 : Fin 1)) :=
  shapeCast_a_a1_apply b _ (0 : Fin 1)

/-! ## The three launches in their bookkeeping are the three layers -/

/-- The first launch: node p's feature times its normalisation factor. -/
theorem layer0 (feat norm : FVec Ideal S1000000x1 .f32) :
    colOf (cutRow (Region0.scaled (padRow (rowOf feat)) (padRow (rowOf norm)))) = Cert.GcnSpec.pre feat norm := by
  funext j
  obtain ⟨p, z, rfl⟩ : ∃ (p : Fin 1000000) (z : Fin 1), j = ix2 p z := ⟨j 0, j 1, eq_ix2 j⟩
  obtain rfl : z = 0 := Subsingleton.elim _ _
  rw [colOf_at, cutRow_at]
  show padRow (rowOf feat) (ix2 (0 : Fin 1) (wide p)) * padRow (rowOf norm) (ix2 (0 : Fin 1) (wide p))
    = feat (ix2 p (0 : Fin 1)) * norm (ix2 p (0 : Fin 1))
  rw [padRow_at, padRow_at, rowOf_at, rowOf_at]

/-- The second launch: the first dense layer at node p, output feature q. -/
theorem layer1 (agg norm : FVec Ideal S1000000x1 .f32) (W : FVec Ideal S1x3 .f32) (b : FVec Ideal S3 .f32) :
    toNodes (cutRows (Region1.dense (padRow (rowOf agg)) (padRow (rowOf norm)) (w1T W) (b1Col b)))
      = Cert.GcnSpec.layer1 agg norm W b := by
  funext j
  obtain ⟨p, q, rfl⟩ : ∃ (p : Fin 1000000) (q : Fin 3), j = ix2 p q := ⟨j 0, j 1, eq_ix2 j⟩
  rw [toNodes_at, cutRows_at]
  show Region1.denseAt (padRow (rowOf agg)) (padRow (rowOf norm)) (w1T W) (b1Col b) q (wide p)
    = Cert.GcnSpec.layer1At agg norm W b p q
  unfold Region1.denseAt Cert.GcnSpec.layer1At Cert.GcnSpec.zeroW
  rw [padRow_at, padRow_at, rowOf_at, rowOf_at, w1T_at, b1Col_at, mul_comm (W (ix2 (0 : Fin 1) q))]

/-- The third launch: the second dense layer at node p. -/
theorem layer2 (agg : FVec Ideal S1000000x3 .f32) (norm : FVec Ideal S1000000x1 .f32) (W : FVec Ideal S3x1 .f32)
    (b : FVec Ideal S1 .f32) :
    colOf (cutRow (Region2.dense (padRows (toRows agg)) (padRow (rowOf norm)) (w2T W) (b2Cell b)))
      = Cert.GcnSpec.layer2 agg norm W b := by
  funext j
  obtain ⟨p, z, rfl⟩ : ∃ (p : Fin 1000000) (z : Fin 1), j = ix2 p z := ⟨j 0, j 1, eq_ix2 j⟩
  obtain rfl : z = 0 := Subsingleton.elim _ _
  rw [colOf_at, cutRow_at]
  show Region2.denseAt (padRows (toRows agg)) (padRow (rowOf norm)) (w2T W) (b2Cell b) (wide p)
    = Cert.GcnSpec.layer2At agg norm W b p
  unfold Region2.denseAt Cert.GcnSpec.layer2At Cert.GcnSpec.zeroW
  rw [padRows_at, padRows_at, padRows_at, padRow_at, toRows_at, toRows_at, toRows_at, rowOf_at, w2T_at, w2T_at, w2T_at,
    b2Cell_at, Fin.sum_univ_three,
    mul_comm (W (ix2 (0 : Fin 3) (0 : Fin 1))), mul_comm (W (ix2 (1 : Fin 3) (0 : Fin 1))),
    mul_comm (W (ix2 (2 : Fin 3) (0 : Fin 1)))]

/-! ## Along the edges -/

/-- The edges' source indices as the gather takes them: a negative index counted from the end, the vector stood up
    as a column. -/
def takeIdx (src : IVec S16000000 32) : IVec S16000000x1 32 :=
  broadcastInDim S16000000x1 ![0] bcast_S16000000_S16000000x1_0
    (select (cmpi .slt src (broadcastInDim S16000000 ![] bcast_S_S16000000 (constantI S_ 32 0#32)))
      (addi src (broadcastInDim S16000000 ![] bcast_S_S16000000 (constantI S_ 32 1000000#32))) src)

/-- Per edge, whether that index is a node's. -/
def takeOk (src : IVec S16000000 32) : IVec S16000000 1 :=
  Host.reduce IntOp.andi
    (andi (cmpi .sge (takeIdx src) (broadcastInDim S16000000x1 ![] bcast_S_S16000000x1 (constantI S_ 32 0#32)))
      (cmpi .sle (takeIdx src) (broadcastInDim S16000000x1 ![0, 1] bcast_S1x1_S16000000x1_0_1
        (broadcastInDim S1x1 ![1] bcast_S1_S1x1_1 (constantI S1 32 999999#32)))))
    (constantI S_ 1 1#1) reducesTo_S16000000x1_S16000000_d1 h_S_

/-- Each edge's source node's row (one feature), a fill value where the index is no node's. -/
def T1 (src : IVec S16000000 32) (h : FVec Ideal S1000000x1 .f32) : FVec Ideal S16000000x1 .f32 :=
  select (broadcastInDim S16000000x1 ![0] bcast_S16000000_S16000000x1_0 (takeOk src))
    (Host.gather gather_S1000000x1_S16000000x1_S16000000x1_1_0_n_n_0_1_11 h (takeIdx src))
    (broadcastInDim S16000000x1 ![] bcast_S_S16000000x1 (constant (F := Ideal) S_ .f32 0x7FC00000#32))

/-- The same for rows of three features. -/
def T3 (src : IVec S16000000 32) (h : FVec Ideal S1000000x3 .f32) : FVec Ideal S16000000x3 .f32 :=
  select (broadcastInDim S16000000x3 ![0] bcast_S16000000_S16000000x3_0 (takeOk src))
    (Host.gather gather_S1000000x3_S16000000x1_S16000000x3_1_0_n_n_0_1_13 h (takeIdx src))
    (broadcastInDim S16000000x3 ![] bcast_S_S16000000x3 (constant (F := Ideal) S_ .f32 0x7FC00000#32))

/-- The edge rows summed at their destination nodes, from zero (one feature). -/
def A1 (dst : IVec S16000000 32) (u : FVec Ideal S16000000x1 .f32) : FVec Ideal S1000000x1 .f32 :=
  Host.scatterAdd scatter_S1000000x1_S16000000x1_S16000000x1_1_0_0_1
    (broadcastInDim S1000000x1 ![] bcast_S_S1000000x1 (constant (F := Ideal) S_ .f32 0x00000000#32))
    (broadcastInDim S16000000x1 ![0] bcast_S16000000_S16000000x1_0 dst) u

/-- The same for rows of three features. -/
def A3 (dst : IVec S16000000 32) (u : FVec Ideal S16000000x3 .f32) : FVec Ideal S1000000x3 .f32 :=
  Host.scatterAdd scatter_S1000000x3_S16000000x1_S16000000x3_1_0_0_1
    (broadcastInDim S1000000x3 ![] bcast_S_S1000000x3 (constant (F := Ideal) S_ .f32 0x00000000#32))
    (broadcastInDim S16000000x1 ![0] bcast_S16000000_S16000000x1_0 dst) u

end Cert.KernelIdeal.KerLayers

end
-- ==== Proof.KerHost.lean ====
/-
  The kernel program's result buffer as the specification's function of the arguments.

  The run's buffer contents at the boundaries between segments are a fold from the launch memory. Read at the few
  buffers that matter, boundary by boundary: before the first launch the two padded rows of features and
  normalisation factors; after it their product; then its first N columns as a column, carried along the edges and
  summed at the destinations, padded again, beside the transposed weight and the bias column; after the second
  launch the first dense layer; and so on to the result buffer, the second dense layer's first N columns as a
  column. The arguments and the padded normalisation row are written once (or never) and read through every later
  boundary unchanged.
-/
import proofs.«158613_j3384434230050_1_alg».proof.Proof.Gen.KernelIdeal.Frame
import proofs.«158613_j3384434230050_1_alg».proof.Proof.LibCallCasts
import proofs.«158613_j3384434230050_1_alg».proof.Proof.Region0
import proofs.«158613_j3384434230050_1_alg».proof.Proof.Region1
import proofs.«158613_j3384434230050_1_alg».proof.Proof.Region2
import proofs.«158613_j3384434230050_1_alg».proof.Proof.KerLayers
import proofs.«158613_j3384434230050_1_alg».proof.Proof.Spec
import Idealize.ShloMosaic.Lib.StableHlo.Run

set_option maxRecDepth 16384

noncomputable section

namespace Cert.KernelIdeal.KerHost

open Cert.KernelIdeal Cert.KernelIdeal.Gen Cert.KernelIdeal.KerLayers
open Idealize.ShloMosaic Idealize.ShloMosaic.TcCoe Idealize.ShloMosaic.ValueIdx Idealize.ShloMosaic.StableHlo
open Idealize.SL Idealize.SL.Sem
open Idealize.ShloMosaic.Pipeline (Dat Cfg Window)

/-! ## The host stretches between the launches, one at a time, from any contents -/

section Stretches

/-- No operation of the stretch writes the buffer, so it keeps its contents. -/
macro "keeps" : tactic => `(tactic| (refine StableHlo.after_of_forall_not_mem _ _ (List.forall_iff_forall_mem.mp (by
    simp only [List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))))

variable (V : Valuation τ sig (Elt Ideal))

/-- After the first launch: its first N columns as a column. -/
theorem s1_v6 : after hostOps1 V (Proc.devRef .tc main_v6) = colOf (cutRow (V (Proc.devRef .tc main_v4))) := by
  after_results
  rfl
theorem s1_arg2 : after hostOps1 V (Proc.devRef .tc main_arg2) = V (Proc.devRef .tc main_arg2) := by keeps
theorem s1_arg3 : after hostOps1 V (Proc.devRef .tc main_arg3) = V (Proc.devRef .tc main_arg3) := by keeps

/-- The gather by the edges' sources, one feature. -/
theorem s11_v7 : after hostOps1_1 V (Proc.devRef .tc main_v7)
    = T1 (V (Proc.devRef .tc main_arg2)) (V (Proc.devRef .tc main_v6)) := by
  -- a typed reference's cast of its own buffer's contents is the identity
  have h2 : ∀ p q r, (TRef.of (T := ⟨S16000000, .i32⟩) main_arg2 p q r).ofBuf (V (Proc.devRef .tc main_arg2))
      = V (Proc.devRef .tc main_arg2) := fun _ _ _ => rfl
  have h6 : ∀ p q r, (TRef.of (T := ⟨S1000000x1, .f32⟩) main_v6 p q r).ofBuf (V (Proc.devRef .tc main_v6))
      = V (Proc.devRef .tc main_v6) := fun _ _ _ => rfl
  after_results_simp
  simp only [Cert.LibCallCasts.ofBuf_toBuf, h2, h6]
  unfold T1 takeOk KerLayers.takeIdx
  congr 1 <;> with_reducible rfl
theorem s11_arg3 : after hostOps1_1 V (Proc.devRef .tc main_arg3) = V (Proc.devRef .tc main_arg3) := by keeps

/-- The sum at the edges' destinations, as a row; and the integer zero the padding converts. -/
theorem s12_v11 : after hostOps1_2 V (Proc.devRef .tc main_v11)
    = rowOf (A1 (V (Proc.devRef .tc main_arg3)) (V (Proc.devRef .tc main_v7))) := by
  after_results
  rfl
theorem s12_c1 : after hostOps1_2 V (Proc.devRef .tc main_c_1) = constantI S_ 32 0#32 := by
  after_results

/-- The padding. -/
theorem s13_v12 : after hostOps1_3 V (Proc.devRef .tc main_v12)
    = pad S1x1015808 ![0, 0] ![0, 15808] ![0, 0] (V (Proc.devRef .tc main_v11))
        (sitofp (F := Ideal) .f32 (V (Proc.devRef .tc main_c_1))) pads_S1x1000000_S1x1015808_000_0158080 h_S_ := by
  after_results
  rfl
theorem s14_v12 : after hostOps1_4 V (Proc.devRef .tc main_v12) = V (Proc.devRef .tc main_v12) := by keeps

/-- After the second launch: its first N columns, transposed back to nodes by features. -/
theorem s2_v17 : after hostOps2 V (Proc.devRef .tc main_v17) = toNodes (cutRows (V (Proc.devRef .tc main_v15))) := by
  after_results
  rfl
theorem s2_arg2 : after hostOps2 V (Proc.devRef .tc main_arg2) = V (Proc.devRef .tc main_arg2) := by keeps
theorem s2_arg3 : after hostOps2 V (Proc.devRef .tc main_arg3) = V (Proc.devRef .tc main_arg3) := by keeps

/-- The gather by the edges' sources, three features. -/
theorem s21_v18 : after hostOps2_1 V (Proc.devRef .tc main_v18)
    = T3 (V (Proc.devRef .tc main_arg2)) (V (Proc.devRef .tc main_v17)) := by
  -- a typed reference's cast of its own buffer's contents is the identity
  have h2 : ∀ p q r, (TRef.of (T := ⟨S16000000, .i32⟩) main_arg2 p q r).ofBuf (V (Proc.devRef .tc main_arg2))
      = V (Proc.devRef .tc main_arg2) := fun _ _ _ => rfl
  have h6 : ∀ p q r, (TRef.of (T := ⟨S1000000x3, .f32⟩) main_v17 p q r).ofBuf (V (Proc.devRef .tc main_v17))
      = V (Proc.devRef .tc main_v17) := fun _ _ _ => rfl
  after_results_simp
  simp only [Cert.LibCallCasts.ofBuf_toBuf, h2, h6]
  unfold T3 takeOk KerLayers.takeIdx
  congr 1 <;> with_reducible rfl
theorem s21_arg3 : after hostOps2_1 V (Proc.devRef .tc main_arg3) = V (Proc.devRef .tc main_arg3) := by keeps

/-- The sum at the edges' destinations, transposed to features by nodes; and the integer zero the padding converts. -/
theorem s22_v22 : after hostOps2_2 V (Proc.devRef .tc main_v22)
    = toRows (A3 (V (Proc.devRef .tc main_arg3)) (V (Proc.devRef .tc main_v18))) := by
  after_results
  rfl
theorem s22_c3 : after hostOps2_2 V (Proc.devRef .tc main_c_3) = constantI S_ 32 0#32 := by
  after_results

/-- The padding. -/
theorem s23_v23 : after hostOps2_3 V (Proc.devRef .tc main_v23)
    = pad S3x1015808 ![0, 0] ![0, 15808] ![0, 0] (V (Proc.devRef .tc main_v22))
        (sitofp (F := Ideal) .f32 (V (Proc.devRef .tc main_c_3))) pads_S3x1000000_S3x1015808_000_0158080 h_S_ := by
  after_results
  rfl
theorem s24_v23 : after hostOps2_4 V (Proc.devRef .tc main_v23) = V (Proc.devRef .tc main_v23) := by keeps

end Stretches

variable (m : (ℓ : Loc nD τ sig) → Buf (Elt Ideal) ℓ) (ρ : Dev nD → PrngReg)

/-! ## Before the first launch -/

theorem entry0_feat (c : Dev nD) :
    W4 m ρ c (Proc.devRef .tc main_v3) = padRow (rowOf (m ((c.tc : Thread nD τ).loc main_arg0))) := by
  dsimp only [W4, W3, W2, W1]
  after_results
  rfl

theorem entry0_norm (c : Dev nD) :
    W4 m ρ c (Proc.devRef .tc main_v2) = padRow (rowOf (m ((c.tc : Thread nD τ).loc main_arg1))) := by
  dsimp only [W4, W3, W2, W1]
  after_results
  rfl

/-- The arguments are as launched. -/
theorem entry0_arg (c : Dev nD) :
    W4 m ρ c (Proc.devRef .tc main_arg2) = m ((c.tc : Thread nD τ).loc main_arg2)
    ∧ W4 m ρ c (Proc.devRef .tc main_arg3) = m ((c.tc : Thread nD τ).loc main_arg3)
    ∧ W4 m ρ c (Proc.devRef .tc main_arg4) = m ((c.tc : Thread nD τ).loc main_arg4)
    ∧ W4 m ρ c (Proc.devRef .tc main_arg5) = m ((c.tc : Thread nD τ).loc main_arg5)
    ∧ W4 m ρ c (Proc.devRef .tc main_arg6) = m ((c.tc : Thread nD τ).loc main_arg6)
    ∧ W4 m ρ c (Proc.devRef .tc main_arg7) = m ((c.tc : Thread nD τ).loc main_arg7) := by
  refine ⟨?_, ?_, ?_, ?_, ?_, ?_⟩ <;> (dsimp only [W4, W3, W2, W1]; after_results; try rfl)

/-! ## After the first launch -/

theorem exit0_out (c : Dev nD) :
    W5 m ρ c (Proc.devRef .tc main_v4)
      = Region0.scaled (padRow (rowOf (m ((c.tc : Thread nD τ).loc main_arg0)))) (padRow (rowOf (m ((c.tc : Thread nD τ).loc main_arg1)))) :=
  (W5_arr m ρ c 2).trans ((Region0.final (V4 m ρ) c).trans (by
    show Region0.scaled (W4 m ρ c (Proc.devRef .tc main_v3)) (W4 m ρ c (Proc.devRef .tc main_v2)) = _
    rw [entry0_feat, entry0_norm]))

theorem exit0_norm (c : Dev nD) :
    W5 m ρ c (Proc.devRef .tc main_v2) = padRow (rowOf (m ((c.tc : Thread nD τ).loc main_arg1))) :=
  (W5_arr m ρ c 1).trans (((dat0 (V4 m ρ) c).arrAt_in 1 rfl _).trans ((A_eq0 (V4 m ρ) c 1).trans (entry0_norm m ρ c)))

theorem exit0_arg (c : Dev nD) :
    W5 m ρ c (Proc.devRef .tc main_arg2) = m ((c.tc : Thread nD τ).loc main_arg2)
    ∧ W5 m ρ c (Proc.devRef .tc main_arg3) = m ((c.tc : Thread nD τ).loc main_arg3)
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6)
    ∧ W5 m ρ c (Proc.devRef .tc main_arg7) = m ((c.tc : Thread nD τ).loc main_arg7) := by
  obtain ⟨h2, h3, h4, h5, h6, h7⟩ := entry0_arg m ρ c
  exact ⟨(W5_of_ne m ρ c main_arg2 (by decide)).trans h2, (W5_of_ne m ρ c main_arg3 (by decide)).trans h3,
    (W5_of_ne m ρ c main_arg4 (by decide)).trans h4, (W5_of_ne m ρ c main_arg5 (by decide)).trans h5,
    (W5_of_ne m ρ c main_arg6 (by decide)).trans h6, (W5_of_ne m ρ c main_arg7 (by decide)).trans h7⟩

/-! ## Between the first and the second launch -/

theorem entry1_agg_raw (c : Dev nD) :
    W10 m ρ c (Proc.devRef .tc main_v12)
      = padRow (rowOf (A1 (W5 m ρ c (Proc.devRef .tc main_arg3)) (T1 (W5 m ρ c (Proc.devRef .tc main_arg2))
          (colOf (cutRow (W5 m ρ c (Proc.devRef .tc main_v4))))))) := by
  have e9 : W10 m ρ c (Proc.devRef .tc main_v12) = W9 m ρ c (Proc.devRef .tc main_v12) := s14_v12 (W9 m ρ c)
  have e8 : W9 m ρ c (Proc.devRef .tc main_v12)
      = pad S1x1015808 ![0, 0] ![0, 15808] ![0, 0] (W8 m ρ c (Proc.devRef .tc main_v11))
          (sitofp (F := Ideal) .f32 (W8 m ρ c (Proc.devRef .tc main_c_1))) pads_S1x1000000_S1x1015808_000_0158080 h_S_ :=
    s13_v12 (W8 m ρ c)
  have e7 : W8 m ρ c (Proc.devRef .tc main_v11)
      = rowOf (A1 (W7 m ρ c (Proc.devRef .tc main_arg3)) (W7 m ρ c (Proc.devRef .tc main_v7))) := s12_v11 (W7 m ρ c)
  have e7c : W8 m ρ c (Proc.devRef .tc main_c_1) = constantI S_ 32 0#32 := s12_c1 (W7 m ρ c)
  have e6 : W7 m ρ c (Proc.devRef .tc main_v7)
      = T1 (W6 m ρ c (Proc.devRef .tc main_arg2)) (W6 m ρ c (Proc.devRef .tc main_v6)) := s11_v7 (W6 m ρ c)
  have e6a : W7 m ρ c (Proc.devRef .tc main_arg3) = W5 m ρ c (Proc.devRef .tc main_arg3) :=
    (s11_arg3 (W6 m ρ c)).trans (s1_arg3 (W5 m ρ c))
  have e5 : W6 m ρ c (Proc.devRef .tc main_v6) = colOf (cutRow (W5 m ρ c (Proc.devRef .tc main_v4))) := s1_v6 (W5 m ρ c)
  have e5a : W6 m ρ c (Proc.devRef .tc main_arg2) = W5 m ρ c (Proc.devRef .tc main_arg2) := s1_arg2 (W5 m ρ c)
  rw [e9, e8, e7, e7c, e6, e6a, e5, e5a]
  rfl

theorem entry1_rest (c : Dev nD) :
    W10 m ρ c (Proc.devRef .tc main_v2) = W5 m ρ c (Proc.devRef .tc main_v2)
    ∧ W10 m ρ c (Proc.devRef .tc main_v13) = w1T (W5 m ρ c (Proc.devRef .tc main_arg4))
    ∧ W10 m ρ c (Proc.devRef .tc main_v14) = b1Col (W5 m ρ c (Proc.devRef .tc main_arg5))
    ∧ W10 m ρ c (Proc.devRef .tc main_arg2) = W5 m ρ c (Proc.devRef .tc main_arg2)
    ∧ W10 m ρ c (Proc.devRef .tc main_arg3) = W5 m ρ c (Proc.devRef .tc main_arg3)
    ∧ W10 m ρ c (Proc.devRef .tc main_arg6) = W5 m ρ c (Proc.devRef .tc main_arg6)
    ∧ W10 m ρ c (Proc.devRef .tc main_arg7) = W5 m ρ c (Proc.devRef .tc main_arg7) := by
  refine ⟨?_, ?_, ?_, ?_, ?_, ?_, ?_⟩ <;> (dsimp only [W10, W9, W8, W7, W6]; after_results; try rfl)

/-- The second launch's first input: the summed messages of the first layer, as a padded row. -/
theorem entry1_agg (c : Dev nD) :
    W10 m ρ c (Proc.devRef .tc main_v12)
      = padRow (rowOf (A1 (m ((c.tc : Thread nD τ).loc main_arg3)) (T1 (m ((c.tc : Thread nD τ).loc main_arg2))
          (Cert.GcnSpec.pre (m ((c.tc : Thread nD τ).loc main_arg0)) (m ((c.tc : Thread nD τ).loc main_arg1)))))) := by
  obtain ⟨h2, h3, -, -, -, -⟩ := exit0_arg m ρ c
  rw [entry1_agg_raw, h2, h3, exit0_out, layer0]

/-! ## After the second launch -/

theorem exit1_out (c : Dev nD) :
    W11 m ρ c (Proc.devRef .tc main_v15)
      = Region1.dense (W10 m ρ c (Proc.devRef .tc main_v12)) (W10 m ρ c (Proc.devRef .tc main_v2))
          (W10 m ρ c (Proc.devRef .tc main_v13)) (W10 m ρ c (Proc.devRef .tc main_v14)) :=
  (W11_arr m ρ c 4).trans (Region1.final (V10 m ρ) c)

theorem exit1_norm (c : Dev nD) :
    W11 m ρ c (Proc.devRef .tc main_v2) = W10 m ρ c (Proc.devRef .tc main_v2) :=
  (W11_arr m ρ c 1).trans (((dat1 (V10 m ρ) c).arrAt_in 1 rfl _).trans (A_eq1 (V10 m ρ) c 1))

/-! ## Between the second and the third launch -/

theorem entry2_agg_raw (c : Dev nD) :
    W16 m ρ c (Proc.devRef .tc main_v23)
      = padRows (toRows (A3 (W11 m ρ c (Proc.devRef .tc main_arg3)) (T3 (W11 m ρ c (Proc.devRef .tc main_arg2))
          (toNodes (cutRows (W11 m ρ c (Proc.devRef .tc main_v15))))))) := by
  have e9 : W16 m ρ c (Proc.devRef .tc main_v23) = W15 m ρ c (Proc.devRef .tc main_v23) := s24_v23 (W15 m ρ c)
  have e8 : W15 m ρ c (Proc.devRef .tc main_v23)
      = pad S3x1015808 ![0, 0] ![0, 15808] ![0, 0] (W14 m ρ c (Proc.devRef .tc main_v22))
          (sitofp (F := Ideal) .f32 (W14 m ρ c (Proc.devRef .tc main_c_3))) pads_S3x1000000_S3x1015808_000_0158080 h_S_ :=
    s23_v23 (W14 m ρ c)
  have e7 : W14 m ρ c (Proc.devRef .tc main_v22)
      = toRows (A3 (W13 m ρ c (Proc.devRef .tc main_arg3)) (W13 m ρ c (Proc.devRef .tc main_v18))) := s22_v22 (W13 m ρ c)
  have e7c : W14 m ρ c (Proc.devRef .tc main_c_3) = constantI S_ 32 0#32 := s22_c3 (W13 m ρ c)
  have e6 : W13 m ρ c (Proc.devRef .tc main_v18)
      = T3 (W12 m ρ c (Proc.devRef .tc main_arg2)) (W12 m ρ c (Proc.devRef .tc main_v17)) := s21_v18 (W12 m ρ c)
  have e6a : W13 m ρ c (Proc.devRef .tc main_arg3) = W11 m ρ c (Proc.devRef .tc main_arg3) :=
    (s21_arg3 (W12 m ρ c)).trans (s2_arg3 (W11 m ρ c))
  have e5 : W12 m ρ c (Proc.devRef .tc main_v17) = toNodes (cutRows (W11 m ρ c (Proc.devRef .tc main_v15))) := s2_v17 (W11 m ρ c)
  have e5a : W12 m ρ c (Proc.devRef .tc main_arg2) = W11 m ρ c (Proc.devRef .tc main_arg2) := s2_arg2 (W11 m ρ c)
  rw [e9, e8, e7, e7c, e6, e6a, e5, e5a]
  rfl

theorem entry2_rest (c : Dev nD) :
    W16 m ρ c (Proc.devRef .tc main_v2) = W11 m ρ c (Proc.devRef .tc main_v2)
    ∧ W16 m ρ c (Proc.devRef .tc main_v24) = w2T (W11 m ρ c (Proc.devRef .tc main_arg6))
    ∧ W16 m ρ c (Proc.devRef .tc main_v25) = b2Cell (W11 m ρ c (Proc.devRef .tc main_arg7)) := by
  refine ⟨?_, ?_, ?_⟩ <;> (dsimp only [W16, W15, W14, W13, W12]; after_results; try rfl)

/-! ## After the third launch, and the result -/

theorem exit2_out (c : Dev nD) :
    W17 m ρ c (Proc.devRef .tc main_v26)
      = Region2.dense (W16 m ρ c (Proc.devRef .tc main_v23)) (W16 m ρ c (Proc.devRef .tc main_v2))
          (W16 m ρ c (Proc.devRef .tc main_v24)) (W16 m ρ c (Proc.devRef .tc main_v25)) :=
  (W17_arr m ρ c 4).trans (Region2.final (V16 m ρ) c)

theorem result_raw (c : Dev nD) :
    W18 m ρ c (Proc.devRef .tc main_v28) = colOf (cutRow (W17 m ρ c (Proc.devRef .tc main_v26))) := by
  dsimp only [W18]
  after_results
  rfl

/-- The arguments a later stretch reads are as launched at the second launch's exit too. -/
theorem exit1_arg (c : Dev nD) :
    W11 m ρ c (Proc.devRef .tc main_arg2) = m ((c.tc : Thread nD τ).loc main_arg2)
    ∧ W11 m ρ c (Proc.devRef .tc main_arg3) = m ((c.tc : Thread nD τ).loc main_arg3)
    ∧ W11 m ρ c (Proc.devRef .tc main_arg6) = m ((c.tc : Thread nD τ).loc main_arg6)
    ∧ W11 m ρ c (Proc.devRef .tc main_arg7) = m ((c.tc : Thread nD τ).loc main_arg7) := by
  obtain ⟨-, -, -, e2, e3, e6, e7⟩ := entry1_rest m ρ c
  obtain ⟨h2, h3, -, -, h6, h7⟩ := exit0_arg m ρ c
  exact ⟨(W11_of_ne m ρ c main_arg2 (by decide)).trans (e2.trans h2), (W11_of_ne m ρ c main_arg3 (by decide)).trans (e3.trans h3),
    (W11_of_ne m ρ c main_arg6 (by decide)).trans (e6.trans h6), (W11_of_ne m ρ c main_arg7 (by decide)).trans (e7.trans h7)⟩

/-- THE VALUE: the result buffer's last contents are the specification's function of the arguments, the carrying
    along the edges and the summing at the nodes being the program's own host operations. -/
theorem value (c : Dev nD) :
    W18 m ρ c (Proc.devRef .tc main_v28)
      = Cert.GcnSpec.G (T1 (m ((c.tc : Thread nD τ).loc main_arg2))) (A1 (m ((c.tc : Thread nD τ).loc main_arg3)))
          (T3 (m ((c.tc : Thread nD τ).loc main_arg2))) (A3 (m ((c.tc : Thread nD τ).loc main_arg3)))
          (m ((c.tc : Thread nD τ).loc main_arg0)) (m ((c.tc : Thread nD τ).loc main_arg1))
          (m ((c.tc : Thread nD τ).loc main_arg4)) (m ((c.tc : Thread nD τ).loc main_arg5))
          (m ((c.tc : Thread nD τ).loc main_arg6)) (m ((c.tc : Thread nD τ).loc main_arg7)) := by
  obtain ⟨-, -, g4, g5, -, -⟩ := exit0_arg m ρ c
  obtain ⟨f2, f3, f6, f7⟩ := exit1_arg m ρ c
  obtain ⟨n1, w1, b1, -, -, -, -⟩ := entry1_rest m ρ c
  obtain ⟨n2, w2, b2⟩ := entry2_rest m ρ c
  have hnorm1 : W10 m ρ c (Proc.devRef .tc main_v2) = padRow (rowOf (m ((c.tc : Thread nD τ).loc main_arg1))) :=
    n1.trans (exit0_norm m ρ c)
  have hnorm2 : W16 m ρ c (Proc.devRef .tc main_v2) = padRow (rowOf (m ((c.tc : Thread nD τ).loc main_arg1))) :=
    n2.trans ((exit1_norm m ρ c).trans hnorm1)
  rw [result_raw, exit2_out, entry2_agg_raw, hnorm2, w2, b2, f2, f3, f6, f7, exit1_out, entry1_agg, hnorm1, w1, b1, g4, g5,
    layer1, layer2]
  rfl

end Cert.KernelIdeal.KerHost

end
-- ==== Proof.RefRun.lean ====
/-
  The reference program's run, read back.

  The reference computes a two-layer graph convolution as one straight line of array operations: a product, the
  carrying of node rows along the edges (an index correction, a range test, a gather and a select), the summing of edge
  rows at their destinations (a scatter that adds), a matrix product, the adding of a bias, a maximum with zero — and the
  same once more for the second layer. Four of those groups are written in the program as functions called once each
  (the carrying, twice, and the maximum with zero, twice; the carrying itself calls a select written as a function);
  a call means the called function's operations on the call's own arrays, so the program is the list `ops` of its
  seventy-four operations in order. The list is also the concatenation of ten named stretches (`ops_eq`), one per
  group, for reading the arrays back a group at a time.

  `run_all`: from any memory whose counters are zero every fair execution of the program ends, and every array then
  holds what the operations, folded in order over the arrays at the start, leave in it.
-/
import proofs.«158613_j3384434230050_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The ten stretches -/

/-- Each node's feature times its normalisation factor. -/
abbrev opsPre : List (HloOp τ sig (Elt F)) :=
  [ StableHlo.binary main_arg0 main_arg1 main_v0 (mulf : (⟨S1000000x1, .f32⟩ : BufTy).Contents (Elt F) → (⟨S1000000x1, .f32⟩ : BufTy).Contents (Elt F) → (⟨S1000000x1, .f32⟩ : BufTy).Contents (Elt F)) ]

/-- Carrying the one scaled feature along the edges: the source index with its size added where it is negative, stood up
    as a column; whether that index lies in range; the node rows gathered at it; and, where it does not lie in range, the
    not-a-number word instead. -/
abbrev opsTake1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16000000, .i32⟩) (broadcastInDim S16000000 ![] bcast_S_S16000000),
    StableHlo.TRef.binary (.of main_arg2 : StableHlo.TRef sig ⟨S16000000, .i32⟩) (.of main_call0_v0 : StableHlo.TRef sig ⟨S16000000, .i32⟩) (.of main_call0_v1 : StableHlo.TRef sig ⟨S16000000, .i1⟩) (cmpi .slt),
    StableHlo.TRef.nullary (.of main_call0_c_0 : StableHlo.TRef sig ⟨S_, .i32⟩) (constantI S_ 32 1000000#32),
    StableHlo.TRef.unary (.of main_call0_c_0 : StableHlo.TRef sig ⟨S_, .i32⟩) (.of main_call0_v2 : StableHlo.TRef sig ⟨S16000000, .i32⟩) (broadcastInDim S16000000 ![] bcast_S_S16000000),
    StableHlo.TRef.binary (.of main_arg2 : StableHlo.TRef sig ⟨S16000000, .i32⟩) (.of main_call0_v2 : StableHlo.TRef sig ⟨S16000000, .i32⟩) (.of main_call0_v3 : StableHlo.TRef sig ⟨S16000000, .i32⟩) addi,
    StableHlo.TRef.ternary (.of main_call0_v1 : StableHlo.TRef sig ⟨S16000000, .i1⟩) (.of main_call0_v3 : StableHlo.TRef sig ⟨S16000000, .i32⟩) (.of main_arg2 : StableHlo.TRef sig ⟨S16000000, .i32⟩) (.of main_call0_v4 : StableHlo.TRef sig ⟨S16000000, .i32⟩) select,
    StableHlo.TRef.unary (.of main_call0_v4 : StableHlo.TRef sig ⟨S16000000, .i32⟩) (.of main_call0_v5 : StableHlo.TRef sig ⟨S16000000x1, .i32⟩) (broadcastInDim S16000000x1 ![0] bcast_S16000000_S16000000x1_0),
    StableHlo.TRef.nullary (.of main_call0_c_1 : StableHlo.TRef sig ⟨S1, .i32⟩) (constantI S1 32 999999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16000000x1, .i32⟩) (broadcastInDim S16000000x1 ![] bcast_S_S16000000x1),
    StableHlo.TRef.binary (.of main_call0_v5 : StableHlo.TRef sig ⟨S16000000x1, .i32⟩) (.of main_call0_v6 : StableHlo.TRef sig ⟨S16000000x1, .i32⟩) (.of main_call0_v7 : StableHlo.TRef sig ⟨S16000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S16000000x1, .i32⟩) (broadcastInDim S16000000x1 ![0, 1] bcast_S1x1_S16000000x1_0_1),
    StableHlo.TRef.binary (.of main_call0_v5 : StableHlo.TRef sig ⟨S16000000x1, .i32⟩) (.of main_call0_v9 : StableHlo.TRef sig ⟨S16000000x1, .i32⟩) (.of main_call0_v10 : StableHlo.TRef sig ⟨S16000000x1, .i1⟩) (cmpi .sle),
    StableHlo.TRef.binary (.of main_call0_v7 : StableHlo.TRef sig ⟨S16000000x1, .i1⟩) (.of main_call0_v10 : StableHlo.TRef sig ⟨S16000000x1, .i1⟩) (.of main_call0_v11 : StableHlo.TRef sig ⟨S16000000x1, .i1⟩) andi,
    StableHlo.TRef.nullary (.of main_call0_c_3 : StableHlo.TRef sig ⟨S_, .i1⟩) (constantI S_ 1 1#1),
    StableHlo.TRef.binary (.of main_call0_v11 : StableHlo.TRef sig ⟨S16000000x1, .i1⟩) (.of main_call0_c_3 : StableHlo.TRef sig ⟨S_, .i1⟩) (.of main_call0_v12 : StableHlo.TRef sig ⟨S16000000, .i1⟩) (fun x v => Host.reduce IntOp.andi x v reducesTo_S16000000x1_S16000000_d1 h_S_),
    StableHlo.TRef.binary (.of main_v0 : StableHlo.TRef sig ⟨S1000000x1, .f32⟩) (.of main_call0_v5 : StableHlo.TRef sig ⟨S16000000x1, .i32⟩) (.of main_call0_v13 : StableHlo.TRef sig ⟨S16000000x1, .f32⟩) (fun x i => Host.gather gather_S1000000x1_S16000000x1_S16000000x1_1_0_n_n_0_1_11 x i),
    StableHlo.TRef.unary (.of main_call0_v12 : StableHlo.TRef sig ⟨S16000000, .i1⟩) (.of main_call0_v14 : StableHlo.TRef sig ⟨S16000000x1, .i1⟩) (broadcastInDim S16000000x1 ![0] bcast_S16000000_S16000000x1_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S16000000x1, .f32⟩) (broadcastInDim S16000000x1 ![] bcast_S_S16000000x1),
    StableHlo.TRef.ternary (.of main_call0_v14 : StableHlo.TRef sig ⟨S16000000x1, .i1⟩) (.of main_call0_v13 : StableHlo.TRef sig ⟨S16000000x1, .f32⟩) (.of main_call0_v15 : StableHlo.TRef sig ⟨S16000000x1, .f32⟩) (.of main_v1 : StableHlo.TRef sig ⟨S16000000x1, .f32⟩) select ]

/-- Summing the carried feature at the edges' destinations: an array of zeros, the destination indices stood up as a
    column, and the sum of the edge rows into the zeros at those indices. -/
abbrev opsSum1 : List (HloOp τ sig (Elt F)) :=
  [ StableHlo.nullary main_cst (constant S_ .f32 0x00000000#32),
    StableHlo.unary main_cst main_v2 (broadcastInDim S1000000x1 ![] bcast_S_S1000000x1 : (⟨S_, .f32⟩ : BufTy).Contents (Elt F) → (⟨S1000000x1, .f32⟩ : BufTy).Contents (Elt F)),
    StableHlo.unary main_arg3 main_v3 (broadcastInDim S16000000x1 ![0] bcast_S16000000_S16000000x1_0 : (⟨S16000000, .i32⟩ : BufTy).Contents (Elt F) → (⟨S16000000x1, .i32⟩ : BufTy).Contents (Elt F)),
    StableHlo.ternary main_v2 main_v3 main_v1 main_v4 ((fun x i u => Host.scatterAdd scatter_S1000000x1_S16000000x1_S16000000x1_1_0_0_1 x i u) : (⟨S1000000x1, .f32⟩ : BufTy).Contents (Elt F) → (⟨S16000000x1, .i32⟩ : BufTy).Contents (Elt F) → (⟨S16000000x1, .f32⟩ : BufTy).Contents (Elt F) → (⟨S1000000x1, .f32⟩ : BufTy).Contents (Elt F)) ]

/-- The first layer's affine map: the sums scaled by the normalisation factor, multiplied by the 1-by-3 weight matrix,
    and the bias row added to every node. -/
abbrev opsAffine1 : List (HloOp τ sig (Elt F)) :=
  [ StableHlo.binary main_v4 main_arg1 main_v5 (mulf : (⟨S1000000x1, .f32⟩ : BufTy).Contents (Elt F) → (⟨S1000000x1, .f32⟩ : BufTy).Contents (Elt F) → (⟨S1000000x1, .f32⟩ : BufTy).Contents (Elt F)),
    StableHlo.binary main_v5 main_arg4 main_v6 ((fun l r => Host.dotGeneral dot_S1000000x1_S1x3_S1000000x3_1_0_0_1_n_n none l r) : (⟨S1000000x1, .f32⟩ : BufTy).Contents (Elt F) → (⟨S1x3, .f32⟩ : BufTy).Contents (Elt F) → (⟨S1000000x3, .f32⟩ : BufTy).Contents (Elt F)),
    StableHlo.unary main_arg5 main_v7 (broadcastInDim S1x3 ![1] bcast_S3_S1x3_1 : (⟨S3, .f32⟩ : BufTy).Contents (Elt F) → (⟨S1x3, .f32⟩ : BufTy).Contents (Elt F)),
    StableHlo.unary main_v7 main_v8 (broadcastInDim S1000000x3 ![0, 1] bcast_S1x3_S1000000x3_0_1 : (⟨S1x3, .f32⟩ : BufTy).Contents (Elt F) → (⟨S1000000x3, .f32⟩ : BufTy).Contents (Elt F)),
    StableHlo.binary main_v6 main_v8 main_v9 (addf : (⟨S1000000x3, .f32⟩ : BufTy).Contents (Elt F) → (⟨S1000000x3, .f32⟩ : BufTy).Contents (Elt F) → (⟨S1000000x3, .f32⟩ : BufTy).Contents (Elt F)) ]

/-- The first layer's clipping below at zero. -/
abbrev opsClip1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S1000000x3, .f32⟩) (broadcastInDim S1000000x3 ![] bcast_S_S1000000x3),
    StableHlo.TRef.binary (.of main_v9 : StableHlo.TRef sig ⟨S1000000x3, .f32⟩) (.of main_call1_v0 : StableHlo.TRef sig ⟨S1000000x3, .f32⟩) (.of main_v10 : StableHlo.TRef sig ⟨S1000000x3, .f32⟩) maximumf ]

/-- The clipped values scaled by the normalisation factor, spread over the three features. -/
abbrev opsScale : List (HloOp τ sig (Elt F)) :=
  [ StableHlo.unary main_arg1 main_v11 (broadcastInDim S1000000x3 ![0, 1] bcast_S1000000x1_S1000000x3_0_1 : (⟨S1000000x1, .f32⟩ : BufTy).Contents (Elt F) → (⟨S1000000x3, .f32⟩ : BufTy).Contents (Elt F)),
    StableHlo.binary main_v10 main_v11 main_v12 (mulf : (⟨S1000000x3, .f32⟩ : BufTy).Contents (Elt F) → (⟨S1000000x3, .f32⟩ : BufTy).Contents (Elt F) → (⟨S1000000x3, .f32⟩ : BufTy).Contents (Elt F)) ]

/-- Carrying the three scaled features along the edges, as the one feature was carried. -/
abbrev opsTake3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16000000, .i32⟩) (broadcastInDim S16000000 ![] bcast_S_S16000000),
    StableHlo.TRef.binary (.of main_arg2 : StableHlo.TRef sig ⟨S16000000, .i32⟩) (.of main_call2_v0 : StableHlo.TRef sig ⟨S16000000, .i32⟩) (.of main_call2_v1 : StableHlo.TRef sig ⟨S16000000, .i1⟩) (cmpi .slt),
    StableHlo.TRef.nullary (.of main_call2_c_0 : StableHlo.TRef sig ⟨S_, .i32⟩) (constantI S_ 32 1000000#32),
    StableHlo.TRef.unary (.of main_call2_c_0 : StableHlo.TRef sig ⟨S_, .i32⟩) (.of main_call2_v2 : StableHlo.TRef sig ⟨S16000000, .i32⟩) (broadcastInDim S16000000 ![] bcast_S_S16000000),
    StableHlo.TRef.binary (.of main_arg2 : StableHlo.TRef sig ⟨S16000000, .i32⟩) (.of main_call2_v2 : StableHlo.TRef sig ⟨S16000000, .i32⟩) (.of main_call2_v3 : StableHlo.TRef sig ⟨S16000000, .i32⟩) addi,
    StableHlo.TRef.ternary (.of main_call2_v1 : StableHlo.TRef sig ⟨S16000000, .i1⟩) (.of main_call2_v3 : StableHlo.TRef sig ⟨S16000000, .i32⟩) (.of main_arg2 : StableHlo.TRef sig ⟨S16000000, .i32⟩) (.of main_call2_v4 : StableHlo.TRef sig ⟨S16000000, .i32⟩) select,
    StableHlo.TRef.unary (.of main_call2_v4 : StableHlo.TRef sig ⟨S16000000, .i32⟩) (.of main_call2_v5 : StableHlo.TRef sig ⟨S16000000x1, .i32⟩) (broadcastInDim S16000000x1 ![0] bcast_S16000000_S16000000x1_0),
    StableHlo.TRef.nullary (.of main_call2_c_1 : StableHlo.TRef sig ⟨S1, .i32⟩) (constantI S1 32 999999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16000000x1, .i32⟩) (broadcastInDim S16000000x1 ![] bcast_S_S16000000x1),
    StableHlo.TRef.binary (.of main_call2_v5 : StableHlo.TRef sig ⟨S16000000x1, .i32⟩) (.of main_call2_v6 : StableHlo.TRef sig ⟨S16000000x1, .i32⟩) (.of main_call2_v7 : StableHlo.TRef sig ⟨S16000000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S16000000x1, .i32⟩) (broadcastInDim S16000000x1 ![0, 1] bcast_S1x1_S16000000x1_0_1),
    StableHlo.TRef.binary (.of main_call2_v5 : StableHlo.TRef sig ⟨S16000000x1, .i32⟩) (.of main_call2_v9 : StableHlo.TRef sig ⟨S16000000x1, .i32⟩) (.of main_call2_v10 : StableHlo.TRef sig ⟨S16000000x1, .i1⟩) (cmpi .sle),
    StableHlo.TRef.binary (.of main_call2_v7 : StableHlo.TRef sig ⟨S16000000x1, .i1⟩) (.of main_call2_v10 : StableHlo.TRef sig ⟨S16000000x1, .i1⟩) (.of main_call2_v11 : StableHlo.TRef sig ⟨S16000000x1, .i1⟩) andi,
    StableHlo.TRef.nullary (.of main_call2_c_3 : StableHlo.TRef sig ⟨S_, .i1⟩) (constantI S_ 1 1#1),
    StableHlo.TRef.binary (.of main_call2_v11 : StableHlo.TRef sig ⟨S16000000x1, .i1⟩) (.of main_call2_c_3 : StableHlo.TRef sig ⟨S_, .i1⟩) (.of main_call2_v12 : StableHlo.TRef sig ⟨S16000000, .i1⟩) (fun x v => Host.reduce IntOp.andi x v reducesTo_S16000000x1_S16000000_d1 h_S_),
    StableHlo.TRef.binary (.of main_v12 : StableHlo.TRef sig ⟨S1000000x3, .f32⟩) (.of main_call2_v5 : StableHlo.TRef sig ⟨S16000000x1, .i32⟩) (.of main_call2_v13 : StableHlo.TRef sig ⟨S16000000x3, .f32⟩) (fun x i => Host.gather gather_S1000000x3_S16000000x1_S16000000x3_1_0_n_n_0_1_13 x i),
    StableHlo.TRef.unary (.of main_call2_v12 : StableHlo.TRef sig ⟨S16000000, .i1⟩) (.of main_call2_v14 : StableHlo.TRef sig ⟨S16000000x3, .i1⟩) (broadcastInDim S16000000x3 ![0] bcast_S16000000_S16000000x3_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S16000000x3, .f32⟩) (broadcastInDim S16000000x3 ![] bcast_S_S16000000x3),
    StableHlo.TRef.ternary (.of main_call2_v14 : StableHlo.TRef sig ⟨S16000000x3, .i1⟩) (.of main_call2_v13 : StableHlo.TRef sig ⟨S16000000x3, .f32⟩) (.of main_call2_v15 : StableHlo.TRef sig ⟨S16000000x3, .f32⟩) (.of main_v13 : StableHlo.TRef sig ⟨S16000000x3, .f32⟩) select ]

/-- Summing the three carried features at the edges' destinations. -/
abbrev opsSum3 : List (HloOp τ sig (Elt F)) :=
  [ StableHlo.nullary main_cst_0 (constant S_ .f32 0x00000000#32),
    StableHlo.unary main_cst_0 main_v14 (broadcastInDim S1000000x3 ![] bcast_S_S1000000x3 : (⟨S_, .f32⟩ : BufTy).Contents (Elt F) → (⟨S1000000x3, .f32⟩ : BufTy).Contents (Elt F)),
    StableHlo.unary main_arg3 main_v15 (broadcastInDim S16000000x1 ![0] bcast_S16000000_S16000000x1_0 : (⟨S16000000, .i32⟩ : BufTy).Contents (Elt F) → (⟨S16000000x1, .i32⟩ : BufTy).Contents (Elt F)),
    StableHlo.ternary main_v14 main_v15 main_v13 main_v16 ((fun x i u => Host.scatterAdd scatter_S1000000x3_S16000000x1_S16000000x3_1_0_0_1 x i u) : (⟨S1000000x3, .f32⟩ : BufTy).Contents (Elt F) → (⟨S16000000x1, .i32⟩ : BufTy).Contents (Elt F) → (⟨S16000000x3, .f32⟩ : BufTy).Contents (Elt F) → (⟨S1000000x3, .f32⟩ : BufTy).Contents (Elt F)) ]

/-- The second layer's affine map: the sums scaled by the normalisation factor spread over the three features,
    multiplied by the 3-by-1 weight matrix, and the one bias added to every node. -/
abbrev opsAffine2 : List (HloOp τ sig (Elt F)) :=
  [ StableHlo.unary main_arg1 main_v17 (broadcastInDim S1000000x3 ![0, 1] bcast_S1000000x1_S1000000x3_0_1 : (⟨S1000000x1, .f32⟩ : BufTy).Contents (Elt F) → (⟨S1000000x3, .f32⟩ : BufTy).Contents (Elt F)),
    StableHlo.binary main_v16 main_v17 main_v18 (mulf : (⟨S1000000x3, .f32⟩ : BufTy).Contents (Elt F) → (⟨S1000000x3, .f32⟩ : BufTy).Contents (Elt F) → (⟨S1000000x3, .f32⟩ : BufTy).Contents (Elt F)),
    StableHlo.binary main_v18 main_arg6 main_v19 ((fun l r => Host.dotGeneral dot_S1000000x3_S3x1_S1000000x1_1_0_0_1_n_n none l r) : (⟨S1000000x3, .f32⟩ : BufTy).Contents (Elt F) → (⟨S3x1, .f32⟩ : BufTy).Contents (Elt F) → (⟨S1000000x1, .f32⟩ : BufTy).Contents (Elt F)),
    StableHlo.unary main_arg7 main_v20 (broadcastInDim S1x1 ![1] bcast_S1_S1x1_1 : (⟨S1, .f32⟩ : BufTy).Contents (Elt F) → (⟨S1x1, .f32⟩ : BufTy).Contents (Elt F)),
    StableHlo.unary main_v20 main_v21 (broadcastInDim S1000000x1 ![0, 1] bcast_S1x1_S1000000x1_0_1 : (⟨S1x1, .f32⟩ : BufTy).Contents (Elt F) → (⟨S1000000x1, .f32⟩ : BufTy).Contents (Elt F)),
    StableHlo.binary main_v19 main_v21 main_v22 (addf : (⟨S1000000x1, .f32⟩ : BufTy).Contents (Elt F) → (⟨S1000000x1, .f32⟩ : BufTy).Contents (Elt F) → (⟨S1000000x1, .f32⟩ : BufTy).Contents (Elt F)) ]

/-- The second layer's clipping below at zero. -/
abbrev opsClip2 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1000000x1, .f32⟩) (broadcastInDim S1000000x1 ![] bcast_S_S1000000x1),
    StableHlo.TRef.binary (.of main_v22 : StableHlo.TRef sig ⟨S1000000x1, .f32⟩) (.of main_call3_v0 : StableHlo.TRef sig ⟨S1000000x1, .f32⟩) (.of main_v23 : StableHlo.TRef sig ⟨S1000000x1, .f32⟩) maximumf ]

/-! ## The whole line -/

/-- The program's seventy-four operations, in order. -/
abbrev ops : List (HloOp τ sig (Elt F)) :=
  [ StableHlo.binary main_arg0 main_arg1 main_v0 (mulf : (⟨S1000000x1, .f32⟩ : BufTy).Contents (Elt F) → (⟨S1000000x1, .f32⟩ : BufTy).Contents (Elt F) → (⟨S1000000x1, .f32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16000000, .i32⟩) (broadcastInDim S16000000 ![] bcast_S_S16000000),
    StableHlo.TRef.binary (.of main_arg2 : StableHlo.TRef sig ⟨S16000000, .i32⟩) (.of main_call0_v0 : StableHlo.TRef sig ⟨S16000000, .i32⟩) (.of main_call0_v1 : StableHlo.TRef sig ⟨S16000000, .i1⟩) (cmpi .slt),
    StableHlo.TRef.nullary (.of main_call0_c_0 : StableHlo.TRef sig ⟨S_, .i32⟩) (constantI S_ 32 1000000#32),
    StableHlo.TRef.unary (.of main_call0_c_0 : StableHlo.TRef sig ⟨S_, .i32⟩) (.of main_call0_v2 : StableHlo.TRef sig ⟨S16000000, .i32⟩) (broadcastInDim S16000000 ![] bcast_S_S16000000),
    StableHlo.TRef.binary (.of main_arg2 : StableHlo.TRef sig ⟨S16000000, .i32⟩) (.of main_call0_v2 : StableHlo.TRef sig ⟨S16000000, .i32⟩) (.of main_call0_v3 : StableHlo.TRef sig ⟨S16000000, .i32⟩) addi,
    StableHlo.TRef.ternary (.of main_call0_v1 : StableHlo.TRef sig ⟨S16000000, .i1⟩) (.of main_call0_v3 : StableHlo.TRef sig ⟨S16000000, .i32⟩) (.of main_arg2 : StableHlo.TRef sig ⟨S16000000, .i32⟩) (.of main_call0_v4 : StableHlo.TRef sig ⟨S16000000, .i32⟩) select,
    StableHlo.TRef.unary (.of main_call0_v4 : StableHlo.TRef sig ⟨S16000000, .i32⟩) (.of main_call0_v5 : StableHlo.TRef sig ⟨S16000000x1, .i32⟩) (broadcastInDim S16000000x1 ![0] bcast_S16000000_S16000000x1_0),
    StableHlo.TRef.nullary (.of main_call0_c_1 : StableHlo.TRef sig ⟨S1, .i32⟩) (constantI S1 32 999999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16000000x1, .i32⟩) (broadcastInDim S16000000x1 ![] bcast_S_S16000000x1),
    StableHlo.TRef.binary (.of main_call0_v5 : StableHlo.TRef sig ⟨S16000000x1, .i32⟩) (.of main_call0_v6 : StableHlo.TRef sig ⟨S16000000x1, .i32⟩) (.of main_call0_v7 : StableHlo.TRef sig ⟨S16000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S16000000x1, .i32⟩) (broadcastInDim S16000000x1 ![0, 1] bcast_S1x1_S16000000x1_0_1),
    StableHlo.TRef.binary (.of main_call0_v5 : StableHlo.TRef sig ⟨S16000000x1, .i32⟩) (.of main_call0_v9 : StableHlo.TRef sig ⟨S16000000x1, .i32⟩) (.of main_call0_v10 : StableHlo.TRef sig ⟨S16000000x1, .i1⟩) (cmpi .sle),
    StableHlo.TRef.binary (.of main_call0_v7 : StableHlo.TRef sig ⟨S16000000x1, .i1⟩) (.of main_call0_v10 : StableHlo.TRef sig ⟨S16000000x1, .i1⟩) (.of main_call0_v11 : StableHlo.TRef sig ⟨S16000000x1, .i1⟩) andi,
    StableHlo.TRef.nullary (.of main_call0_c_3 : StableHlo.TRef sig ⟨S_, .i1⟩) (constantI S_ 1 1#1),
    StableHlo.TRef.binary (.of main_call0_v11 : StableHlo.TRef sig ⟨S16000000x1, .i1⟩) (.of main_call0_c_3 : StableHlo.TRef sig ⟨S_, .i1⟩) (.of main_call0_v12 : StableHlo.TRef sig ⟨S16000000, .i1⟩) (fun x v => Host.reduce IntOp.andi x v reducesTo_S16000000x1_S16000000_d1 h_S_),
    StableHlo.TRef.binary (.of main_v0 : StableHlo.TRef sig ⟨S1000000x1, .f32⟩) (.of main_call0_v5 : StableHlo.TRef sig ⟨S16000000x1, .i32⟩) (.of main_call0_v13 : StableHlo.TRef sig ⟨S16000000x1, .f32⟩) (fun x i => Host.gather gather_S1000000x1_S16000000x1_S16000000x1_1_0_n_n_0_1_11 x i),
    StableHlo.TRef.unary (.of main_call0_v12 : StableHlo.TRef sig ⟨S16000000, .i1⟩) (.of main_call0_v14 : StableHlo.TRef sig ⟨S16000000x1, .i1⟩) (broadcastInDim S16000000x1 ![0] bcast_S16000000_S16000000x1_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S16000000x1, .f32⟩) (broadcastInDim S16000000x1 ![] bcast_S_S16000000x1),
    StableHlo.TRef.ternary (.of main_call0_v14 : StableHlo.TRef sig ⟨S16000000x1, .i1⟩) (.of main_call0_v13 : StableHlo.TRef sig ⟨S16000000x1, .f32⟩) (.of main_call0_v15 : StableHlo.TRef sig ⟨S16000000x1, .f32⟩) (.of main_v1 : StableHlo.TRef sig ⟨S16000000x1, .f32⟩) select,
    StableHlo.nullary main_cst (constant S_ .f32 0x00000000#32),
    StableHlo.unary main_cst main_v2 (broadcastInDim S1000000x1 ![] bcast_S_S1000000x1 : (⟨S_, .f32⟩ : BufTy).Contents (Elt F) → (⟨S1000000x1, .f32⟩ : BufTy).Contents (Elt F)),
    StableHlo.unary main_arg3 main_v3 (broadcastInDim S16000000x1 ![0] bcast_S16000000_S16000000x1_0 : (⟨S16000000, .i32⟩ : BufTy).Contents (Elt F) → (⟨S16000000x1, .i32⟩ : BufTy).Contents (Elt F)),
    StableHlo.ternary main_v2 main_v3 main_v1 main_v4 ((fun x i u => Host.scatterAdd scatter_S1000000x1_S16000000x1_S16000000x1_1_0_0_1 x i u) : (⟨S1000000x1, .f32⟩ : BufTy).Contents (Elt F) → (⟨S16000000x1, .i32⟩ : BufTy).Contents (Elt F) → (⟨S16000000x1, .f32⟩ : BufTy).Contents (Elt F) → (⟨S1000000x1, .f32⟩ : BufTy).Contents (Elt F)),
    StableHlo.binary main_v4 main_arg1 main_v5 (mulf : (⟨S1000000x1, .f32⟩ : BufTy).Contents (Elt F) → (⟨S1000000x1, .f32⟩ : BufTy).Contents (Elt F) → (⟨S1000000x1, .f32⟩ : BufTy).Contents (Elt F)),
    StableHlo.binary main_v5 main_arg4 main_v6 ((fun l r => Host.dotGeneral dot_S1000000x1_S1x3_S1000000x3_1_0_0_1_n_n none l r) : (⟨S1000000x1, .f32⟩ : BufTy).Contents (Elt F) → (⟨S1x3, .f32⟩ : BufTy).Contents (Elt F) → (⟨S1000000x3, .f32⟩ : BufTy).Contents (Elt F)),
    StableHlo.unary main_arg5 main_v7 (broadcastInDim S1x3 ![1] bcast_S3_S1x3_1 : (⟨S3, .f32⟩ : BufTy).Contents (Elt F) → (⟨S1x3, .f32⟩ : BufTy).Contents (Elt F)),
    StableHlo.unary main_v7 main_v8 (broadcastInDim S1000000x3 ![0, 1] bcast_S1x3_S1000000x3_0_1 : (⟨S1x3, .f32⟩ : BufTy).Contents (Elt F) → (⟨S1000000x3, .f32⟩ : BufTy).Contents (Elt F)),
    StableHlo.binary main_v6 main_v8 main_v9 (addf : (⟨S1000000x3, .f32⟩ : BufTy).Contents (Elt F) → (⟨S1000000x3, .f32⟩ : BufTy).Contents (Elt F) → (⟨S1000000x3, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S1000000x3, .f32⟩) (broadcastInDim S1000000x3 ![] bcast_S_S1000000x3),
    StableHlo.TRef.binary (.of main_v9 : StableHlo.TRef sig ⟨S1000000x3, .f32⟩) (.of main_call1_v0 : StableHlo.TRef sig ⟨S1000000x3, .f32⟩) (.of main_v10 : StableHlo.TRef sig ⟨S1000000x3, .f32⟩) maximumf,
    StableHlo.unary main_arg1 main_v11 (broadcastInDim S1000000x3 ![0, 1] bcast_S1000000x1_S1000000x3_0_1 : (⟨S1000000x1, .f32⟩ : BufTy).Contents (Elt F) → (⟨S1000000x3, .f32⟩ : BufTy).Contents (Elt F)),
    StableHlo.binary main_v10 main_v11 main_v12 (mulf : (⟨S1000000x3, .f32⟩ : BufTy).Contents (Elt F) → (⟨S1000000x3, .f32⟩ : BufTy).Contents (Elt F) → (⟨S1000000x3, .f32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16000000, .i32⟩) (broadcastInDim S16000000 ![] bcast_S_S16000000),
    StableHlo.TRef.binary (.of main_arg2 : StableHlo.TRef sig ⟨S16000000, .i32⟩) (.of main_call2_v0 : StableHlo.TRef sig ⟨S16000000, .i32⟩) (.of main_call2_v1 : StableHlo.TRef sig ⟨S16000000, .i1⟩) (cmpi .slt),
    StableHlo.TRef.nullary (.of main_call2_c_0 : StableHlo.TRef sig ⟨S_, .i32⟩) (constantI S_ 32 1000000#32),
    StableHlo.TRef.unary (.of main_call2_c_0 : StableHlo.TRef sig ⟨S_, .i32⟩) (.of main_call2_v2 : StableHlo.TRef sig ⟨S16000000, .i32⟩) (broadcastInDim S16000000 ![] bcast_S_S16000000),
    StableHlo.TRef.binary (.of main_arg2 : StableHlo.TRef sig ⟨S16000000, .i32⟩) (.of main_call2_v2 : StableHlo.TRef sig ⟨S16000000, .i32⟩) (.of main_call2_v3 : StableHlo.TRef sig ⟨S16000000, .i32⟩) addi,
    StableHlo.TRef.ternary (.of main_call2_v1 : StableHlo.TRef sig ⟨S16000000, .i1⟩) (.of main_call2_v3 : StableHlo.TRef sig ⟨S16000000, .i32⟩) (.of main_arg2 : StableHlo.TRef sig ⟨S16000000, .i32⟩) (.of main_call2_v4 : StableHlo.TRef sig ⟨S16000000, .i32⟩) select,
    StableHlo.TRef.unary (.of main_call2_v4 : StableHlo.TRef sig ⟨S16000000, .i32⟩) (.of main_call2_v5 : StableHlo.TRef sig ⟨S16000000x1, .i32⟩) (broadcastInDim S16000000x1 ![0] bcast_S16000000_S16000000x1_0),
    StableHlo.TRef.nullary (.of main_call2_c_1 : StableHlo.TRef sig ⟨S1, .i32⟩) (constantI S1 32 999999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16000000x1, .i32⟩) (broadcastInDim S16000000x1 ![] bcast_S_S16000000x1),
    StableHlo.TRef.binary (.of main_call2_v5 : StableHlo.TRef sig ⟨S16000000x1, .i32⟩) (.of main_call2_v6 : StableHlo.TRef sig ⟨S16000000x1, .i32⟩) (.of main_call2_v7 : StableHlo.TRef sig ⟨S16000000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S16000000x1, .i32⟩) (broadcastInDim S16000000x1 ![0, 1] bcast_S1x1_S16000000x1_0_1),
    StableHlo.TRef.binary (.of main_call2_v5 : StableHlo.TRef sig ⟨S16000000x1, .i32⟩) (.of main_call2_v9 : StableHlo.TRef sig ⟨S16000000x1, .i32⟩) (.of main_call2_v10 : StableHlo.TRef sig ⟨S16000000x1, .i1⟩) (cmpi .sle),
    StableHlo.TRef.binary (.of main_call2_v7 : StableHlo.TRef sig ⟨S16000000x1, .i1⟩) (.of main_call2_v10 : StableHlo.TRef sig ⟨S16000000x1, .i1⟩) (.of main_call2_v11 : StableHlo.TRef sig ⟨S16000000x1, .i1⟩) andi,
    StableHlo.TRef.nullary (.of main_call2_c_3 : StableHlo.TRef sig ⟨S_, .i1⟩) (constantI S_ 1 1#1),
    StableHlo.TRef.binary (.of main_call2_v11 : StableHlo.TRef sig ⟨S16000000x1, .i1⟩) (.of main_call2_c_3 : StableHlo.TRef sig ⟨S_, .i1⟩) (.of main_call2_v12 : StableHlo.TRef sig ⟨S16000000, .i1⟩) (fun x v => Host.reduce IntOp.andi x v reducesTo_S16000000x1_S16000000_d1 h_S_),
    StableHlo.TRef.binary (.of main_v12 : StableHlo.TRef sig ⟨S1000000x3, .f32⟩) (.of main_call2_v5 : StableHlo.TRef sig ⟨S16000000x1, .i32⟩) (.of main_call2_v13 : StableHlo.TRef sig ⟨S16000000x3, .f32⟩) (fun x i => Host.gather gather_S1000000x3_S16000000x1_S16000000x3_1_0_n_n_0_1_13 x i),
    StableHlo.TRef.unary (.of main_call2_v12 : StableHlo.TRef sig ⟨S16000000, .i1⟩) (.of main_call2_v14 : StableHlo.TRef sig ⟨S16000000x3, .i1⟩) (broadcastInDim S16000000x3 ![0] bcast_S16000000_S16000000x3_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S16000000x3, .f32⟩) (broadcastInDim S16000000x3 ![] bcast_S_S16000000x3),
    StableHlo.TRef.ternary (.of main_call2_v14 : StableHlo.TRef sig ⟨S16000000x3, .i1⟩) (.of main_call2_v13 : StableHlo.TRef sig ⟨S16000000x3, .f32⟩) (.of main_call2_v15 : StableHlo.TRef sig ⟨S16000000x3, .f32⟩) (.of main_v13 : StableHlo.TRef sig ⟨S16000000x3, .f32⟩) select,
    StableHlo.nullary main_cst_0 (constant S_ .f32 0x00000000#32),
    StableHlo.unary main_cst_0 main_v14 (broadcastInDim S1000000x3 ![] bcast_S_S1000000x3 : (⟨S_, .f32⟩ : BufTy).Contents (Elt F) → (⟨S1000000x3, .f32⟩ : BufTy).Contents (Elt F)),
    StableHlo.unary main_arg3 main_v15 (broadcastInDim S16000000x1 ![0] bcast_S16000000_S16000000x1_0 : (⟨S16000000, .i32⟩ : BufTy).Contents (Elt F) → (⟨S16000000x1, .i32⟩ : BufTy).Contents (Elt F)),
    StableHlo.ternary main_v14 main_v15 main_v13 main_v16 ((fun x i u => Host.scatterAdd scatter_S1000000x3_S16000000x1_S16000000x3_1_0_0_1 x i u) : (⟨S1000000x3, .f32⟩ : BufTy).Contents (Elt F) → (⟨S16000000x1, .i32⟩ : BufTy).Contents (Elt F) → (⟨S16000000x3, .f32⟩ : BufTy).Contents (Elt F) → (⟨S1000000x3, .f32⟩ : BufTy).Contents (Elt F)),
    StableHlo.unary main_arg1 main_v17 (broadcastInDim S1000000x3 ![0, 1] bcast_S1000000x1_S1000000x3_0_1 : (⟨S1000000x1, .f32⟩ : BufTy).Contents (Elt F) → (⟨S1000000x3, .f32⟩ : BufTy).Contents (Elt F)),
    StableHlo.binary main_v16 main_v17 main_v18 (mulf : (⟨S1000000x3, .f32⟩ : BufTy).Contents (Elt F) → (⟨S1000000x3, .f32⟩ : BufTy).Contents (Elt F) → (⟨S1000000x3, .f32⟩ : BufTy).Contents (Elt F)),
    StableHlo.binary main_v18 main_arg6 main_v19 ((fun l r => Host.dotGeneral dot_S1000000x3_S3x1_S1000000x1_1_0_0_1_n_n none l r) : (⟨S1000000x3, .f32⟩ : BufTy).Contents (Elt F) → (⟨S3x1, .f32⟩ : BufTy).Contents (Elt F) → (⟨S1000000x1, .f32⟩ : BufTy).Contents (Elt F)),
    StableHlo.unary main_arg7 main_v20 (broadcastInDim S1x1 ![1] bcast_S1_S1x1_1 : (⟨S1, .f32⟩ : BufTy).Contents (Elt F) → (⟨S1x1, .f32⟩ : BufTy).Contents (Elt F)),
    StableHlo.unary main_v20 main_v21 (broadcastInDim S1000000x1 ![0, 1] bcast_S1x1_S1000000x1_0_1 : (⟨S1x1, .f32⟩ : BufTy).Contents (Elt F) → (⟨S1000000x1, .f32⟩ : BufTy).Contents (Elt F)),
    StableHlo.binary main_v19 main_v21 main_v22 (addf : (⟨S1000000x1, .f32⟩ : BufTy).Contents (Elt F) → (⟨S1000000x1, .f32⟩ : BufTy).Contents (Elt F) → (⟨S1000000x1, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1000000x1, .f32⟩) (broadcastInDim S1000000x1 ![] bcast_S_S1000000x1),
    StableHlo.TRef.binary (.of main_v22 : StableHlo.TRef sig ⟨S1000000x1, .f32⟩) (.of main_call3_v0 : StableHlo.TRef sig ⟨S1000000x1, .f32⟩) (.of main_v23 : StableHlo.TRef sig ⟨S1000000x1, .f32⟩) maximumf ]

/-- The line is its ten stretches one after the other. -/
theorem ops_eq : (ops : List (HloOp τ sig (Elt F))) =
    opsPre ++ (opsTake1 ++ (opsSum1 ++ (opsAffine1 ++ (opsClip1 ++ (opsScale ++ (opsTake3 ++ (opsSum3 ++ (opsAffine2 ++ (opsClip2))))))))) := rfl

/-- The first carrying function, called on its own arrays, is its stretch. -/
theorem take1_eq : fn_take.body (F := F) (.of main_v0) (.of main_arg2) main_call0 = seq opsTake1 := rfl

/-- The first clipping function, called on its own arrays, is its stretch. -/
theorem clip1_eq : fn_relu.body (F := F) (.of main_v9) main_call1 = seq opsClip1 := rfl

/-- The second carrying function, called on its own arrays, is its stretch. -/
theorem take3_eq : fn_take_0.body (F := F) (.of main_v12) (.of main_arg2) main_call2 = seq opsTake3 := rfl

/-- The second clipping function, called on its own arrays, is its stretch. -/
theorem clip2_eq : fn_relu_1.body (F := F) (.of main_v22) main_call3 = seq opsClip2 := rfl

/-- The program is that line: each called function stands for its own operations on the call's arrays, and running
    the stretches one after the other is running their concatenation. -/
theorem main_eq (c : Dev nD) : main (F := F) c = seq ops := by
  rw [ops_eq]
  simp only [seq_append, ← take1_eq, ← clip1_eq, ← take3_eq, ← clip2_eq]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches arrays of the one core only. -/
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., binary_bufs_sub .., binary_bufs_sub .., unary_bufs_sub .., unary_bufs_sub .., binary_bufs_sub .., nullary_bufs_sub .., unary_bufs_sub .., binary_bufs_sub ..⟩

/-- On every device, for any float values, from any memory with zero counters: every fair execution of the program
    ends, and every array of the core then holds the fold of the operations, in order, over the arrays at the start. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.RefValue.lean ====
/-
  The reference program's result is the specification.

  Read at exact arithmetic, the reference's result array is the two-layer graph convolution `Cert.GcnSpec.G` of its
  eight input arrays, with the carrying of node rows along the edges (`T1`, `T3`: an index correction, a range test, a
  gather and a select) and the summing of edge rows at their destinations (`A1`, `A3`: a scatter that adds into zeros)
  spelt exactly as the program spells them; and the input arrays end as they began.

  The proof has three parts. The per-node arithmetic between the gathers and the sums — a product with the
  normalisation factor, a matrix product with one contracted axis, a bias, a maximum with zero — is read entry by entry
  and is the specification's (`hostLayer1_eq`, `hostLayer2_eq`): the specification was written in the program's own
  order of operations, so no algebra is needed, only what each broadcast and each product reads at an entry. The
  program's line of seventy-four operations is then read back one stretch at a time (`atPre` … `atClip2`, each stretch
  composing its own operations; `keepPre` … `keepClip2`, no stretch writing an input array), and the stretches' results
  are chained (`W1_res` … `W10_res`) into the program's one function `hostOut` of the input arrays (`fold_out`). The run
  of the line (`RefRun.run_all`) then gives `run`.
-/
import proofs.«158613_j3384434230050_1_alg».proof.Proof.RefRun
import proofs.«158613_j3384434230050_1_alg».proof.Proof.Spec
import proofs.«158613_j3384434230050_1_alg».proof.Proof.LibMatmulAt
import proofs.«158613_j3384434230050_1_alg».proof.Proof.LibBcastRowCol
import proofs.«158613_j3384434230050_1_alg».proof.Proof.LibHostRead
import proofs.«158613_j3384434230050_1_alg».proof.Proof.LibCallCasts
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## Carrying node rows to the edges, summing edge rows at the nodes -/

/-- The edges' source indices made ready for the gather: the size of the node axis added where an index is negative,
    and the result stood up as a column. -/
def takeIdx (src : IVec S16000000 32) : IVec S16000000x1 32 :=
  broadcastInDim S16000000x1 ![0] bcast_S16000000_S16000000x1_0
    (select (cmpi .slt src (broadcastInDim S16000000 ![] bcast_S_S16000000 (constantI S_ 32 0#32)))
      (addi src (broadcastInDim S16000000 ![] bcast_S_S16000000 (constantI S_ 32 1000000#32))) src)

/-- Whether a corrected source index lies among the nodes: at least zero and at most the last node, the two tests
    joined and reduced along the column's one entry. -/
def takeOk (src : IVec S16000000 32) : IVec S16000000 1 :=
  Host.reduce IntOp.andi
    (andi (cmpi .sge (takeIdx src) (broadcastInDim S16000000x1 ![] bcast_S_S16000000x1 (constantI S_ 32 0#32)))
      (cmpi .sle (takeIdx src)
        (broadcastInDim S16000000x1 ![0, 1] bcast_S1x1_S16000000x1_0_1
          (broadcastInDim S1x1 ![1] bcast_S1_S1x1_1 (constantI S1 32 999999#32)))))
    (constantI S_ 1 1#1) reducesTo_S16000000x1_S16000000_d1 h_S_

/-- One feature carried along the edges: each edge takes its source node's row, or not-a-number where the source index
    lies outside the nodes. -/
def T1 (src : IVec S16000000 32) (h : FVec Ideal S1000000x1 .f32) : FVec Ideal S16000000x1 .f32 :=
  select (broadcastInDim S16000000x1 ![0] bcast_S16000000_S16000000x1_0 (takeOk src))
    (Host.gather gather_S1000000x1_S16000000x1_S16000000x1_1_0_n_n_0_1_11 h (takeIdx src))
    (broadcastInDim S16000000x1 ![] bcast_S_S16000000x1 (constant (F := Ideal) S_ .f32 0x7FC00000#32))

/-- Three features carried along the edges, likewise. -/
def T3 (src : IVec S16000000 32) (h : FVec Ideal S1000000x3 .f32) : FVec Ideal S16000000x3 .f32 :=
  select (broadcastInDim S16000000x3 ![0] bcast_S16000000_S16000000x3_0 (takeOk src))
    (Host.gather gather_S1000000x3_S16000000x1_S16000000x3_1_0_n_n_0_1_13 h (takeIdx src))
    (broadcastInDim S16000000x3 ![] bcast_S_S16000000x3 (constant (F := Ideal) S_ .f32 0x7FC00000#32))

/-- One feature summed at the edges' destinations: every edge's row added into an array of zeros at the row its
    destination index names. -/
def A1 (dst : IVec S16000000 32) (u : FVec Ideal S16000000x1 .f32) : FVec Ideal S1000000x1 .f32 :=
  Host.scatterAdd scatter_S1000000x1_S16000000x1_S16000000x1_1_0_0_1
    (broadcastInDim S1000000x1 ![] bcast_S_S1000000x1 (constant (F := Ideal) S_ .f32 0x00000000#32))
    (broadcastInDim S16000000x1 ![0] bcast_S16000000_S16000000x1_0 dst) u

/-- Three features summed at the edges' destinations, likewise. -/
def A3 (dst : IVec S16000000 32) (u : FVec Ideal S16000000x3 .f32) : FVec Ideal S1000000x3 .f32 :=
  Host.scatterAdd scatter_S1000000x3_S16000000x1_S16000000x3_1_0_0_1
    (broadcastInDim S1000000x3 ![] bcast_S_S1000000x3 (constant (F := Ideal) S_ .f32 0x00000000#32))
    (broadcastInDim S16000000x1 ![0] bcast_S16000000_S16000000x1_0 dst) u

/-! ## The per-node arithmetic, as the program spells it -/

/-- Each node's feature times its normalisation factor, in the program's operation. -/
def hostPre (feat norm : FVec Ideal S1000000x1 .f32) : FVec Ideal S1000000x1 .f32 := mulf feat norm

/-- An array of three features scaled, node by node, by the normalisation factor spread over the three features. -/
def hostScale3 (x : FVec Ideal S1000000x3 .f32) (norm : FVec Ideal S1000000x1 .f32) : FVec Ideal S1000000x3 .f32 :=
  mulf x (broadcastInDim S1000000x3 ![0, 1] bcast_S1000000x1_S1000000x3_0_1 norm)

/-- The first layer's affine map, in the program's operations: the sums scaled, multiplied by the weights, the bias row
    added to every node. -/
def hostAffine1 (agg norm : FVec Ideal S1000000x1 .f32) (W : FVec Ideal S1x3 .f32) (b : FVec Ideal S3 .f32) :
    FVec Ideal S1000000x3 .f32 :=
  addf (Host.dotGeneral dot_S1000000x1_S1x3_S1000000x3_1_0_0_1_n_n none (mulf agg norm) W)
    (broadcastInDim S1000000x3 ![0, 1] bcast_S1x3_S1000000x3_0_1 (broadcastInDim S1x3 ![1] bcast_S3_S1x3_1 b))

/-- Clipping an array of three features below at zero, in the program's operations. -/
def hostClip3 (x : FVec Ideal S1000000x3 .f32) : FVec Ideal S1000000x3 .f32 :=
  maximumf x (broadcastInDim S1000000x3 ![] bcast_S_S1000000x3 (constant (F := Ideal) S_ .f32 0x00000000#32))

/-- The first layer after the summing, in the program's operations: the affine map, the clipping, and the scaling for the
    next layer. -/
def hostLayer1 (agg norm : FVec Ideal S1000000x1 .f32) (W : FVec Ideal S1x3 .f32) (b : FVec Ideal S3 .f32) :
    FVec Ideal S1000000x3 .f32 :=
  hostScale3 (hostClip3 (hostAffine1 agg norm W b)) norm

/-- The second layer's affine map, in the program's operations: the sums scaled, multiplied by the weights, the bias added
    to every node. -/
def hostAffine2 (agg : FVec Ideal S1000000x3 .f32) (norm : FVec Ideal S1000000x1 .f32) (W : FVec Ideal S3x1 .f32)
    (b : FVec Ideal S1 .f32) : FVec Ideal S1000000x1 .f32 :=
  addf
    (Host.dotGeneral dot_S1000000x3_S3x1_S1000000x1_1_0_0_1_n_n none
      (mulf agg (broadcastInDim S1000000x3 ![0, 1] bcast_S1000000x1_S1000000x3_0_1 norm)) W)
    (broadcastInDim S1000000x1 ![0, 1] bcast_S1x1_S1000000x1_0_1 (broadcastInDim S1x1 ![1] bcast_S1_S1x1_1 b))

/-- Clipping an array of one feature below at zero, in the program's operations. -/
def hostClip1 (x : FVec Ideal S1000000x1 .f32) : FVec Ideal S1000000x1 .f32 :=
  maximumf x (broadcastInDim S1000000x1 ![] bcast_S_S1000000x1 (constant (F := Ideal) S_ .f32 0x00000000#32))

/-- The second layer after the summing, in the program's operations: the affine map and the clipping. -/
def hostLayer2 (agg : FVec Ideal S1000000x3 .f32) (norm : FVec Ideal S1000000x1 .f32) (W : FVec Ideal S3x1 .f32)
    (b : FVec Ideal S1 .f32) : FVec Ideal S1000000x1 .f32 :=
  hostClip1 (hostAffine2 agg norm W b)

/-- The whole program as one function of its eight inputs. -/
def hostOut (feat norm : FVec Ideal S1000000x1 .f32) (src dst : IVec S16000000 32) (W1 : FVec Ideal S1x3 .f32)
    (b1 : FVec Ideal S3 .f32) (W2 : FVec Ideal S3x1 .f32) (b2 : FVec Ideal S1 .f32) : FVec Ideal S1000000x1 .f32 :=
  hostLayer2 (A3 dst (T3 src (hostLayer1 (A1 dst (T1 src (hostPre feat norm))) norm W1 b1))) norm W2 b2

/-! ## The per-node arithmetic is the specification's -/

/-- The 1-by-3 product at node `p`, feature `q`: a sum over the one contracted position. -/
theorem dot1_at (l : FVec Ideal S1000000x1 .f32) (r : FVec Ideal S1x3 .f32) (p : Fin 1000000) (q : Fin 3) :
    Host.dotGeneral dot_S1000000x1_S1x3_S1000000x3_1_0_0_1_n_n none l r (ix2 p q)
      = l (ix2 p (0 : Fin 1)) * r (ix2 (0 : Fin 1) q) := by
  rw [MatmulAt.dotGeneral_ix2 (a := 1000000) (n := 1) (b := 3) dot_S1000000x1_S1x3_S1000000x3_1_0_0_1_n_n rfl rfl
    (fun _ _ => rfl)
    (fun i k => DotDims.lhsIdx_val_of_single dot_S1000000x1_S1x3_S1000000x3_1_0_0_1_n_n (cl := 1) rfl i k)
    (fun i k => DotDims.rhsIdx_val_of_single dot_S1000000x1_S1x3_S1000000x3_1_0_0_1_n_n (cr := 0) rfl i k)
    (fun _ _ => rfl) none l r p q]
  exact Fin.sum_univ_one _

/-- The 3-by-1 product at node `p`: the sum over the three contracted positions. -/
theorem dot2_at (l : FVec Ideal S1000000x3 .f32) (r : FVec Ideal S3x1 .f32) (p : Fin 1000000) :
    Host.dotGeneral dot_S1000000x3_S3x1_S1000000x1_1_0_0_1_n_n none l r (ix2 p (0 : Fin 1))
      = ∑ k : Fin 3, l (ix2 p k) * r (ix2 k (0 : Fin 1)) :=
  MatmulAt.dotGeneral_ix2 (a := 1000000) (n := 3) (b := 1) dot_S1000000x3_S3x1_S1000000x1_1_0_0_1_n_n rfl rfl
    (fun _ _ => rfl)
    (fun i k => DotDims.lhsIdx_val_of_single dot_S1000000x3_S3x1_S1000000x1_1_0_0_1_n_n (cl := 1) rfl i k)
    (fun i k => DotDims.rhsIdx_val_of_single dot_S1000000x3_S3x1_S1000000x1_1_0_0_1_n_n (cr := 0) rfl i k)
    (fun _ _ => rfl) none l r p (0 : Fin 1)

/-- The program's first product is the specification's. -/
theorem hostPre_eq (feat norm : FVec Ideal S1000000x1 .f32) : hostPre feat norm = Cert.GcnSpec.pre feat norm := rfl

/-- The program's first layer is the specification's. -/
theorem hostLayer1_eq (agg norm : FVec Ideal S1000000x1 .f32) (W : FVec Ideal S1x3 .f32) (b : FVec Ideal S3 .f32) :
    hostLayer1 agg norm W b = Cert.GcnSpec.layer1 agg norm W b := by
  funext j
  obtain ⟨p, q, rfl⟩ : ∃ (p : Fin 1000000) (q : Fin 3), j = ix2 p q := ⟨j 0, j 1, eq_ix2 j⟩
  show hostLayer1 agg norm W b (ix2 p q) = Cert.GcnSpec.layer1At agg norm W b p q
  unfold hostLayer1 hostScale3 hostClip3 hostAffine1 Cert.GcnSpec.layer1At Cert.GcnSpec.zeroW
  rw [mulf_apply, maximumf_apply, addf_apply, dot1_at, mulf_apply, HostRead.splat_at,
    Cert.LibBcastRowCol.vecRows_apply, Cert.LibBcastRowCol.colSpread_apply]

/-- The program's second layer is the specification's. -/
theorem hostLayer2_eq (agg : FVec Ideal S1000000x3 .f32) (norm : FVec Ideal S1000000x1 .f32) (W : FVec Ideal S3x1 .f32)
    (b : FVec Ideal S1 .f32) : hostLayer2 agg norm W b = Cert.GcnSpec.layer2 agg norm W b := by
  funext j
  obtain ⟨p, q, rfl⟩ : ∃ (p : Fin 1000000) (q : Fin 1), j = ix2 p q := ⟨j 0, j 1, eq_ix2 j⟩
  obtain rfl : q = 0 := Subsingleton.elim _ _
  show hostLayer2 agg norm W b (ix2 p (0 : Fin 1)) = Cert.GcnSpec.layer2At agg norm W b p
  unfold hostLayer2 hostClip1 hostAffine2 Cert.GcnSpec.layer2At Cert.GcnSpec.zeroW
  rw [maximumf_apply, addf_apply, dot2_at, HostRead.splat_at, Cert.LibBcastRowCol.vecRows_apply]
  refine congrArg (fun s => max (s + b (ix1 (0 : Fin 1))) _) (Finset.sum_congr rfl fun k _ => ?_)
  rw [mulf_apply, Cert.LibBcastRowCol.colSpread_apply]

/-- The whole program is the specification, with the carrying and the summing as the program spells them. -/
theorem hostOut_eq (feat norm : FVec Ideal S1000000x1 .f32) (src dst : IVec S16000000 32) (W1 : FVec Ideal S1x3 .f32)
    (b1 : FVec Ideal S3 .f32) (W2 : FVec Ideal S3x1 .f32) (b2 : FVec Ideal S1 .f32) :
    hostOut feat norm src dst W1 b1 W2 b2
      = Cert.GcnSpec.G (T1 src) (A1 dst) (T3 src) (A3 dst) feat norm W1 b1 W2 b2 := by
  unfold hostOut Cert.GcnSpec.G
  rw [hostLayer1_eq, hostLayer2_eq, hostPre_eq]

/-! ## The arrays after each stretch

Each stretch is read back on its own: the array of its last operation holds the stretch's operations composed, at what
the stretch's input arrays held before it; the arrays it does not write keep what they held. -/

section Stretches

-- the gathers, the sums by destination and the reductions are compared as they stand, never opened
attribute [local irreducible] Host.gather Host.scatterAdd Host.reduce

/-- The eight input arrays. -/
abbrev inputs : List (Ref sig .tc) :=
  [main_arg0, main_arg1, main_arg2, main_arg3, main_arg4, main_arg5, main_arg6, main_arg7]

/-- The arrays the stretch `opsPre` writes. -/
abbrev wrPre : List (Ref sig .tc) := [main_v0]
theorem writesPre : (RefRun.opsPre (F := Ideal)).Forall fun op =>
    op.writes ⊆ (wrPre.map (Proc.devRef (τ := τ) .tc)).toFinset := by
  simp only [List.Forall]; exact (by simp only [nullary_writes, unary_writes, binary_writes, ternary_writes, Finset.singleton_subset_iff, List.mem_toFinset]; exact List.mem_map_of_mem (by decide))
theorem inputs_notPre : ∀ r ∈ inputs, r ∉ wrPre := by decide
/-- An input array keeps its contents through the stretch. -/
theorem keepPre (V : Valuation τ sig (Elt Ideal)) (r : Ref sig .tc) (h : r ∈ inputs) :
    after (RefRun.opsPre (F := Ideal)) V (Proc.devRef .tc r) = V (Proc.devRef .tc r) :=
  after_of_writes_sub _ _ writesPre (inputs_notPre r h)
/-- The stretch's result. -/
theorem atPre (V : Valuation τ sig (Elt Ideal)) :
    after (RefRun.opsPre (F := Ideal)) V (main_v0 : DevRef τ sig) = hostPre (V (main_arg0 : DevRef τ sig)) (V (main_arg1 : DevRef τ sig)) := by
  after_results_simp
  all_goals (try simp only [Cert.LibCallCasts.ofBuf_toBuf])
  all_goals rfl

/-- The arrays the stretch `opsTake1` writes. -/
abbrev wrTake1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1]
theorem writesTake1 : (RefRun.opsTake1 (F := Ideal)).Forall fun op =>
    op.writes ⊆ (wrTake1.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notTake1 : ∀ r ∈ inputs, r ∉ wrTake1 := by decide
/-- An input array keeps its contents through the stretch. -/
theorem keepTake1 (V : Valuation τ sig (Elt Ideal)) (r : Ref sig .tc) (h : r ∈ inputs) :
    after (RefRun.opsTake1 (F := Ideal)) V (Proc.devRef .tc r) = V (Proc.devRef .tc r) :=
  after_of_writes_sub _ _ writesTake1 (inputs_notTake1 r h)
/-- The stretch's result. -/
theorem atTake1 (V : Valuation τ sig (Elt Ideal)) :
    after (RefRun.opsTake1 (F := Ideal)) V (main_v1 : DevRef τ sig) = T1 (V (main_arg2 : DevRef τ sig)) (V (main_v0 : DevRef τ sig)) := by
  after_results_simp
  all_goals (try simp only [Cert.LibCallCasts.ofBuf_toBuf])
  all_goals rfl

/-- The arrays the stretch `opsSum1` writes. -/
abbrev wrSum1 : List (Ref sig .tc) := [main_cst, main_v2, main_v3, main_v4]
theorem writesSum1 : (RefRun.opsSum1 (F := Ideal)).Forall fun op =>
    op.writes ⊆ (wrSum1.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notSum1 : ∀ r ∈ inputs, r ∉ wrSum1 := by decide
/-- An input array keeps its contents through the stretch. -/
theorem keepSum1 (V : Valuation τ sig (Elt Ideal)) (r : Ref sig .tc) (h : r ∈ inputs) :
    after (RefRun.opsSum1 (F := Ideal)) V (Proc.devRef .tc r) = V (Proc.devRef .tc r) :=
  after_of_writes_sub _ _ writesSum1 (inputs_notSum1 r h)
/-- The stretch's result. -/
theorem atSum1 (V : Valuation τ sig (Elt Ideal)) :
    after (RefRun.opsSum1 (F := Ideal)) V (main_v4 : DevRef τ sig) = A1 (V (main_arg3 : DevRef τ sig)) (V (main_v1 : DevRef τ sig)) := by
  after_results_simp
  all_goals (try simp only [Cert.LibCallCasts.ofBuf_toBuf])
  all_goals rfl

/-- The arrays the stretch `opsAffine1` writes. -/
abbrev wrAffine1 : List (Ref sig .tc) := [main_v5, main_v6, main_v7, main_v8, main_v9]
theorem writesAffine1 : (RefRun.opsAffine1 (F := Ideal)).Forall fun op =>
    op.writes ⊆ (wrAffine1.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notAffine1 : ∀ r ∈ inputs, r ∉ wrAffine1 := by decide
/-- An input array keeps its contents through the stretch. -/
theorem keepAffine1 (V : Valuation τ sig (Elt Ideal)) (r : Ref sig .tc) (h : r ∈ inputs) :
    after (RefRun.opsAffine1 (F := Ideal)) V (Proc.devRef .tc r) = V (Proc.devRef .tc r) :=
  after_of_writes_sub _ _ writesAffine1 (inputs_notAffine1 r h)
/-- The stretch's result. -/
theorem atAffine1 (V : Valuation τ sig (Elt Ideal)) :
    after (RefRun.opsAffine1 (F := Ideal)) V (main_v9 : DevRef τ sig) = hostAffine1 (V (main_v4 : DevRef τ sig)) (V (main_arg1 : DevRef τ sig)) (V (main_arg4 : DevRef τ sig)) (V (main_arg5 : DevRef τ sig)) := by
  after_results_simp
  all_goals (try simp only [Cert.LibCallCasts.ofBuf_toBuf])
  all_goals rfl

/-- The arrays the stretch `opsClip1` writes. -/
abbrev wrClip1 : List (Ref sig .tc) := [main_call1_cst, main_call1_v0, main_v10]
theorem writesClip1 : (RefRun.opsClip1 (F := Ideal)).Forall fun op =>
    op.writes ⊆ (wrClip1.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notClip1 : ∀ r ∈ inputs, r ∉ wrClip1 := by decide
/-- An input array keeps its contents through the stretch. -/
theorem keepClip1 (V : Valuation τ sig (Elt Ideal)) (r : Ref sig .tc) (h : r ∈ inputs) :
    after (RefRun.opsClip1 (F := Ideal)) V (Proc.devRef .tc r) = V (Proc.devRef .tc r) :=
  after_of_writes_sub _ _ writesClip1 (inputs_notClip1 r h)
/-- The stretch's result. -/
theorem atClip1 (V : Valuation τ sig (Elt Ideal)) :
    after (RefRun.opsClip1 (F := Ideal)) V (main_v10 : DevRef τ sig) = hostClip3 (V (main_v9 : DevRef τ sig)) := by
  after_results_simp
  all_goals (try simp only [Cert.LibCallCasts.ofBuf_toBuf])
  all_goals rfl

/-- The arrays the stretch `opsScale` writes. -/
abbrev wrScale : List (Ref sig .tc) := [main_v11, main_v12]
theorem writesScale : (RefRun.opsScale (F := Ideal)).Forall fun op =>
    op.writes ⊆ (wrScale.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notScale : ∀ r ∈ inputs, r ∉ wrScale := by decide
/-- An input array keeps its contents through the stretch. -/
theorem keepScale (V : Valuation τ sig (Elt Ideal)) (r : Ref sig .tc) (h : r ∈ inputs) :
    after (RefRun.opsScale (F := Ideal)) V (Proc.devRef .tc r) = V (Proc.devRef .tc r) :=
  after_of_writes_sub _ _ writesScale (inputs_notScale r h)
/-- The stretch's result. -/
theorem atScale (V : Valuation τ sig (Elt Ideal)) :
    after (RefRun.opsScale (F := Ideal)) V (main_v12 : DevRef τ sig) = hostScale3 (V (main_v10 : DevRef τ sig)) (V (main_arg1 : DevRef τ sig)) := by
  after_results_simp
  all_goals (try simp only [Cert.LibCallCasts.ofBuf_toBuf])
  all_goals rfl

/-- The arrays the stretch `opsTake3` writes. -/
abbrev wrTake3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v13]
theorem writesTake3 : (RefRun.opsTake3 (F := Ideal)).Forall fun op =>
    op.writes ⊆ (wrTake3.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notTake3 : ∀ r ∈ inputs, r ∉ wrTake3 := by decide
/-- An input array keeps its contents through the stretch. -/
theorem keepTake3 (V : Valuation τ sig (Elt Ideal)) (r : Ref sig .tc) (h : r ∈ inputs) :
    after (RefRun.opsTake3 (F := Ideal)) V (Proc.devRef .tc r) = V (Proc.devRef .tc r) :=
  after_of_writes_sub _ _ writesTake3 (inputs_notTake3 r h)
/-- The stretch's result. -/
theorem atTake3 (V : Valuation τ sig (Elt Ideal)) :
    after (RefRun.opsTake3 (F := Ideal)) V (main_v13 : DevRef τ sig) = T3 (V (main_arg2 : DevRef τ sig)) (V (main_v12 : DevRef τ sig)) := by
  after_results_simp
  all_goals (try simp only [Cert.LibCallCasts.ofBuf_toBuf])
  all_goals rfl

/-- The arrays the stretch `opsSum3` writes. -/
abbrev wrSum3 : List (Ref sig .tc) := [main_cst_0, main_v14, main_v15, main_v16]
theorem writesSum3 : (RefRun.opsSum3 (F := Ideal)).Forall fun op =>
    op.writes ⊆ (wrSum3.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notSum3 : ∀ r ∈ inputs, r ∉ wrSum3 := by decide
/-- An input array keeps its contents through the stretch. -/
theorem keepSum3 (V : Valuation τ sig (Elt Ideal)) (r : Ref sig .tc) (h : r ∈ inputs) :
    after (RefRun.opsSum3 (F := Ideal)) V (Proc.devRef .tc r) = V (Proc.devRef .tc r) :=
  after_of_writes_sub _ _ writesSum3 (inputs_notSum3 r h)
/-- The stretch's result. -/
theorem atSum3 (V : Valuation τ sig (Elt Ideal)) :
    after (RefRun.opsSum3 (F := Ideal)) V (main_v16 : DevRef τ sig) = A3 (V (main_arg3 : DevRef τ sig)) (V (main_v13 : DevRef τ sig)) := by
  after_results_simp
  all_goals (try simp only [Cert.LibCallCasts.ofBuf_toBuf])
  all_goals rfl

/-- The arrays the stretch `opsAffine2` writes. -/
abbrev wrAffine2 : List (Ref sig .tc) := [main_v17, main_v18, main_v19, main_v20, main_v21, main_v22]
theorem writesAffine2 : (RefRun.opsAffine2 (F := Ideal)).Forall fun op =>
    op.writes ⊆ (wrAffine2.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notAffine2 : ∀ r ∈ inputs, r ∉ wrAffine2 := by decide
/-- An input array keeps its contents through the stretch. -/
theorem keepAffine2 (V : Valuation τ sig (Elt Ideal)) (r : Ref sig .tc) (h : r ∈ inputs) :
    after (RefRun.opsAffine2 (F := Ideal)) V (Proc.devRef .tc r) = V (Proc.devRef .tc r) :=
  after_of_writes_sub _ _ writesAffine2 (inputs_notAffine2 r h)
/-- The stretch's result. -/
theorem atAffine2 (V : Valuation τ sig (Elt Ideal)) :
    after (RefRun.opsAffine2 (F := Ideal)) V (main_v22 : DevRef τ sig) = hostAffine2 (V (main_v16 : DevRef τ sig)) (V (main_arg1 : DevRef τ sig)) (V (main_arg6 : DevRef τ sig)) (V (main_arg7 : DevRef τ sig)) := by
  after_results_simp
  all_goals (try simp only [Cert.LibCallCasts.ofBuf_toBuf])
  all_goals rfl

/-- The arrays the stretch `opsClip2` writes. -/
abbrev wrClip2 : List (Ref sig .tc) := [main_call3_cst, main_call3_v0, main_v23]
theorem writesClip2 : (RefRun.opsClip2 (F := Ideal)).Forall fun op =>
    op.writes ⊆ (wrClip2.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem inputs_notClip2 : ∀ r ∈ inputs, r ∉ wrClip2 := by decide
/-- An input array keeps its contents through the stretch. -/
theorem keepClip2 (V : Valuation τ sig (Elt Ideal)) (r : Ref sig .tc) (h : r ∈ inputs) :
    after (RefRun.opsClip2 (F := Ideal)) V (Proc.devRef .tc r) = V (Proc.devRef .tc r) :=
  after_of_writes_sub _ _ writesClip2 (inputs_notClip2 r h)
/-- The stretch's result. -/
theorem atClip2 (V : Valuation τ sig (Elt Ideal)) :
    after (RefRun.opsClip2 (F := Ideal)) V (main_v23 : DevRef τ sig) = hostClip1 (V (main_v22 : DevRef τ sig)) := by
  after_results_simp
  all_goals (try simp only [Cert.LibCallCasts.ofBuf_toBuf])
  all_goals rfl

/-! ## The whole line, stretch by stretch -/

/-- Running two lines one after the other is running the second from where the first ends. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The arrays after the first stretch. -/
def W1 (V : Valuation τ sig (Elt Ideal)) : Valuation τ sig (Elt Ideal) := after (RefRun.opsPre (F := Ideal)) V
/-- The arrays after the first 2 stretches. -/
def W2 (V : Valuation τ sig (Elt Ideal)) : Valuation τ sig (Elt Ideal) := after (RefRun.opsTake1 (F := Ideal)) (W1 V)
/-- The arrays after the first 3 stretches. -/
def W3 (V : Valuation τ sig (Elt Ideal)) : Valuation τ sig (Elt Ideal) := after (RefRun.opsSum1 (F := Ideal)) (W2 V)
/-- The arrays after the first 4 stretches. -/
def W4 (V : Valuation τ sig (Elt Ideal)) : Valuation τ sig (Elt Ideal) := after (RefRun.opsAffine1 (F := Ideal)) (W3 V)
/-- The arrays after the first 5 stretches. -/
def W5 (V : Valuation τ sig (Elt Ideal)) : Valuation τ sig (Elt Ideal) := after (RefRun.opsClip1 (F := Ideal)) (W4 V)
/-- The arrays after the first 6 stretches. -/
def W6 (V : Valuation τ sig (Elt Ideal)) : Valuation τ sig (Elt Ideal) := after (RefRun.opsScale (F := Ideal)) (W5 V)
/-- The arrays after the first 7 stretches. -/
def W7 (V : Valuation τ sig (Elt Ideal)) : Valuation τ sig (Elt Ideal) := after (RefRun.opsTake3 (F := Ideal)) (W6 V)
/-- The arrays after the first 8 stretches. -/
def W8 (V : Valuation τ sig (Elt Ideal)) : Valuation τ sig (Elt Ideal) := after (RefRun.opsSum3 (F := Ideal)) (W7 V)
/-- The arrays after the first 9 stretches. -/
def W9 (V : Valuation τ sig (Elt Ideal)) : Valuation τ sig (Elt Ideal) := after (RefRun.opsAffine2 (F := Ideal)) (W8 V)
/-- The arrays after the first 10 stretches. -/
def W10 (V : Valuation τ sig (Elt Ideal)) : Valuation τ sig (Elt Ideal) := after (RefRun.opsClip2 (F := Ideal)) (W9 V)

/-- The whole line leaves what its ten stretches, one after the other, leave. -/
theorem after_ops (V : Valuation τ sig (Elt Ideal)) : after (RefRun.ops (F := Ideal)) V = W10 V := by
  rw [RefRun.ops_eq]
  simp only [after_two]
  rfl

/-! The input arrays are never written: after every stretch each holds what it held at the start. -/

theorem W1_in (V : Valuation τ sig (Elt Ideal)) (r : Ref sig .tc) (h : r ∈ inputs) :
    W1 V (Proc.devRef .tc r) = V (Proc.devRef .tc r) :=
  keepPre V r h
theorem W2_in (V : Valuation τ sig (Elt Ideal)) (r : Ref sig .tc) (h : r ∈ inputs) :
    W2 V (Proc.devRef .tc r) = V (Proc.devRef .tc r) :=
  (keepTake1 (W1 V) r h).trans (W1_in V r h)
theorem W3_in (V : Valuation τ sig (Elt Ideal)) (r : Ref sig .tc) (h : r ∈ inputs) :
    W3 V (Proc.devRef .tc r) = V (Proc.devRef .tc r) :=
  (keepSum1 (W2 V) r h).trans (W2_in V r h)
theorem W4_in (V : Valuation τ sig (Elt Ideal)) (r : Ref sig .tc) (h : r ∈ inputs) :
    W4 V (Proc.devRef .tc r) = V (Proc.devRef .tc r) :=
  (keepAffine1 (W3 V) r h).trans (W3_in V r h)
theorem W5_in (V : Valuation τ sig (Elt Ideal)) (r : Ref sig .tc) (h : r ∈ inputs) :
    W5 V (Proc.devRef .tc r) = V (Proc.devRef .tc r) :=
  (keepClip1 (W4 V) r h).trans (W4_in V r h)
theorem W6_in (V : Valuation τ sig (Elt Ideal)) (r : Ref sig .tc) (h : r ∈ inputs) :
    W6 V (Proc.devRef .tc r) = V (Proc.devRef .tc r) :=
  (keepScale (W5 V) r h).trans (W5_in V r h)
theorem W7_in (V : Valuation τ sig (Elt Ideal)) (r : Ref sig .tc) (h : r ∈ inputs) :
    W7 V (Proc.devRef .tc r) = V (Proc.devRef .tc r) :=
  (keepTake3 (W6 V) r h).trans (W6_in V r h)
theorem W8_in (V : Valuation τ sig (Elt Ideal)) (r : Ref sig .tc) (h : r ∈ inputs) :
    W8 V (Proc.devRef .tc r) = V (Proc.devRef .tc r) :=
  (keepSum3 (W7 V) r h).trans (W7_in V r h)
theorem W9_in (V : Valuation τ sig (Elt Ideal)) (r : Ref sig .tc) (h : r ∈ inputs) :
    W9 V (Proc.devRef .tc r) = V (Proc.devRef .tc r) :=
  (keepAffine2 (W8 V) r h).trans (W8_in V r h)
theorem W10_in (V : Valuation τ sig (Elt Ideal)) (r : Ref sig .tc) (h : r ∈ inputs) :
    W10 V (Proc.devRef .tc r) = V (Proc.devRef .tc r) :=
  (keepClip2 (W9 V) r h).trans (W9_in V r h)

/-! The result of each stretch, in the input arrays at the start. -/

theorem W1_res (V : Valuation τ sig (Elt Ideal)) :
    W1 V (main_v0 : DevRef τ sig)
      = hostPre (V (main_arg0 : DevRef τ sig)) (V (main_arg1 : DevRef τ sig)) :=
  atPre V
theorem W2_res (V : Valuation τ sig (Elt Ideal)) :
    W2 V (main_v1 : DevRef τ sig)
      = T1 (V (main_arg2 : DevRef τ sig)) (hostPre (V (main_arg0 : DevRef τ sig)) (V (main_arg1 : DevRef τ sig))) :=
  (atTake1 (W1 V)).trans (by rw [W1_in V main_arg2 (by decide), W1_res])
theorem W3_res (V : Valuation τ sig (Elt Ideal)) :
    W3 V (main_v4 : DevRef τ sig)
      = A1 (V (main_arg3 : DevRef τ sig)) (T1 (V (main_arg2 : DevRef τ sig)) (hostPre (V (main_arg0 : DevRef τ sig)) (V (main_arg1 : DevRef τ sig)))) :=
  (atSum1 (W2 V)).trans (by rw [W2_in V main_arg3 (by decide), W2_res])
theorem W4_res (V : Valuation τ sig (Elt Ideal)) :
    W4 V (main_v9 : DevRef τ sig)
      = hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)) :=
  (atAffine1 (W3 V)).trans (by rw [W3_in V main_arg1 (by decide), W3_in V main_arg4 (by decide), W3_in V main_arg5 (by decide), W3_res])
theorem W5_res (V : Valuation τ sig (Elt Ideal)) :
    W5 V (main_v10 : DevRef τ sig)
      = hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig))) :=
  (atClip1 (W4 V)).trans (by rw [W4_res])
theorem W6_res (V : Valuation τ sig (Elt Ideal)) :
    W6 V (main_v12 : DevRef τ sig)
      = hostScale3 (hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)))) (V (main_arg1 : DevRef τ sig)) :=
  (atScale (W5 V)).trans (by rw [W5_in V main_arg1 (by decide), W5_res])
theorem W7_res (V : Valuation τ sig (Elt Ideal)) :
    W7 V (main_v13 : DevRef τ sig)
      = T3 (V (main_arg2 : DevRef τ sig)) (hostScale3 (hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)))) (V (main_arg1 : DevRef τ sig))) :=
  (atTake3 (W6 V)).trans (by rw [W6_in V main_arg2 (by decide), W6_res])
theorem W8_res (V : Valuation τ sig (Elt Ideal)) :
    W8 V (main_v16 : DevRef τ sig)
      = A3 (V (main_arg3 : DevRef τ sig)) (T3 (V (main_arg2 : DevRef τ sig)) (hostScale3 (hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)))) (V (main_arg1 : DevRef τ sig)))) :=
  (atSum3 (W7 V)).trans (by rw [W7_in V main_arg3 (by decide), W7_res])
theorem W9_res (V : Valuation τ sig (Elt Ideal)) :
    W9 V (main_v22 : DevRef τ sig)
      = hostAffine2 (A3 (V (main_arg3 : DevRef τ sig)) (T3 (V (main_arg2 : DevRef τ sig)) (hostScale3 (hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)))) (V (main_arg1 : DevRef τ sig))))) (V (main_arg1 : DevRef τ sig)) (V (main_arg6 : DevRef τ sig)) (V (main_arg7 : DevRef τ sig)) :=
  (atAffine2 (W8 V)).trans (by rw [W8_in V main_arg1 (by decide), W8_in V main_arg6 (by decide), W8_in V main_arg7 (by decide), W8_res])
theorem W10_res (V : Valuation τ sig (Elt Ideal)) :
    W10 V (main_v23 : DevRef τ sig)
      = hostClip1 (hostAffine2 (A3 (V (main_arg3 : DevRef τ sig)) (T3 (V (main_arg2 : DevRef τ sig)) (hostScale3 (hostClip3 (hostAffine1 (A1 (V (main_arg3 : DevRef τ sig)) (T1 (V (main_arg2 : DevRef τ sig)) (hostPre (V (main_arg0 : DevRef τ sig)) (V (main_arg1 : DevRef τ sig))))) (V (main_arg1 : DevRef τ sig)) (V (main_arg4 : DevRef τ sig)) (V (main_arg5 : DevRef τ sig)))) (V (main_arg1 : DevRef τ sig))))) (V (main_arg1 : DevRef τ sig)) (V (main_arg6 : DevRef τ sig)) (V (main_arg7 : DevRef τ sig))) :=
  (atClip2 (W9 V)).trans (by rw [W9_res])

/-- The result array after the whole line is the program's one function of the eight input arrays. -/
theorem fold_out (V : Valuation τ sig (Elt Ideal)) :
    after (RefRun.ops (F := Ideal)) V (main_v23 : DevRef τ sig)
      = hostOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, W10_res]
  rfl

/-- An input array after the whole line holds what it held at the start. -/
theorem fold_in (V : Valuation τ sig (Elt Ideal)) (r : Ref sig .tc) (h : r ∈ inputs) :
    after (RefRun.ops (F := Ideal)) V (Proc.devRef .tc r) = V (Proc.devRef .tc r) := by
  rw [after_ops]
  exact W10_in V r h

/-! ## The run -/

/-- On every device, from any memory with zero counters: every fair execution of the reference ends; the result array
    then holds the two-layer graph convolution of the input arrays at the start — the edges' carrying and summing as
    the program spells them — and every input array holds what it held at the start. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = Cert.GcnSpec.G (T1 (m ((c.tc : Thread nD τ).loc main_arg2))) (A1 (m ((c.tc : Thread nD τ).loc main_arg3))) (T3 (m ((c.tc : Thread nD τ).loc main_arg2))) (A3 (m ((c.tc : Thread nD τ).loc main_arg3))) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v23).trans ((fold_out (launchContents m c)).trans (hostOut_eq _ _ _ _ _ _ _ _)),
       (h c main_arg0).trans (fold_in (launchContents m c) main_arg0 (by decide)),
       (h c main_arg1).trans (fold_in (launchContents m c) main_arg1 (by decide)),
       (h c main_arg2).trans (fold_in (launchContents m c) main_arg2 (by decide)),
       (h c main_arg3).trans (fold_in (launchContents m c) main_arg3 (by decide)),
       (h c main_arg4).trans (fold_in (launchContents m c) main_arg4 (by decide)),
       (h c main_arg5).trans (fold_in (launchContents m c) main_arg5 (by decide)),
       (h c main_arg6).trans (fold_in (launchContents m c) main_arg6 (by decide)),
       (h c main_arg7).trans (fold_in (launchContents m c) main_arg7 (by decide))⟩)
    (RefRun.run_all m ρ)

end Stretches

end Cert.ReferenceIdeal.RefValue

end
-- ==== Proof.lean ====
/-
  A two-layer graph convolution: three pipelined kernel launches against the host's plain formulation.

  Both programs scale each node's feature by the node's normalisation factor, carry it along every edge to the
  edge's destination, sum what arrives, scale again, apply an affine map and clip at zero; they do it twice (one
  feature to three, three to one), and between the layers scale the clipped value once more. The kernel program
  does the per-node arithmetic in three launches over transposed, padded arrays (Proof/Region0..2, Proof/KerLayers)
  with the gather and the sum along the edges left to the host between them (Proof/KerHost follows the buffers
  through the program); the reference does everything on the host (Proof/RefRun, Proof/RefValue). At the ideal
  instance both results are ONE function of the arguments (Proof/Spec): the launches' blocks tile their arrays, the
  padding never reaches the result, a product of two extended reals commutes, and a sum over three features is its
  three terms added left to right. No finiteness of the inputs is used. The gather and the sum along the edges are
  the same host operations in both programs and are never opened.

  The three frames: the kernel programs' are the generated launch proofs; the reference's is its run with the
  result dropped. The idealisation rewrote nothing, so it preserves the kernel trivially.
-/
import proofs.«158613_j3384434230050_1_alg».proof.Defs
import proofs.«158613_j3384434230050_1_alg».proof.Proof.Gen.Kernel
import proofs.«158613_j3384434230050_1_alg».proof.Proof.Gen.Kernel.Skeleton
import proofs.«158613_j3384434230050_1_alg».proof.Proof.Gen.Kernel.Launch
import proofs.«158613_j3384434230050_1_alg».proof.Proof.Gen.Kernel.Points
import proofs.«158613_j3384434230050_1_alg».proof.Proof.Gen.Kernel.Frame
import proofs.«158613_j3384434230050_1_alg».proof.Proof.Gen.KernelIdeal
import proofs.«158613_j3384434230050_1_alg».proof.Proof.Gen.KernelIdeal.Skeleton
import proofs.«158613_j3384434230050_1_alg».proof.Proof.Gen.KernelIdeal.Launch
import proofs.«158613_j3384434230050_1_alg».proof.Proof.Gen.KernelIdeal.Points
import proofs.«158613_j3384434230050_1_alg».proof.Proof.Gen.KernelIdeal.Frame
import proofs.«158613_j3384434230050_1_alg».proof.Proof.Gen.ReferenceIdeal
import proofs.«158613_j3384434230050_1_alg».proof.Proof.Gen.Pre_finite_inputs
import proofs.«158613_j3384434230050_1_alg».proof.Proof.KerRun
import proofs.«158613_j3384434230050_1_alg».proof.Proof.KerHost
import proofs.«158613_j3384434230050_1_alg».proof.Proof.RefValue
import Idealize.ShloMosaic.Adequacy
import Idealize.ShloMosaic.Init

noncomputable section

namespace Cert.Proof

open Idealize.ShloMosaic Idealize.SL.Sem

/-- The gather by the edges' sources and the sum by the edges' destinations are the same compositions of host
    operations in the two programs. -/
theorem edges_eq :
    Cert.ReferenceIdeal.RefValue.T1 = Cert.KernelIdeal.KerLayers.T1
    ∧ Cert.ReferenceIdeal.RefValue.A1 = Cert.KernelIdeal.KerLayers.A1
    ∧ Cert.ReferenceIdeal.RefValue.T3 = Cert.KernelIdeal.KerLayers.T3
    ∧ Cert.ReferenceIdeal.RefValue.A3 = Cert.KernelIdeal.KerLayers.A3 :=
  ⟨rfl, rfl, rfl, rfl⟩

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on the arguments both programs end with the specification's function of them. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.KerHost.value m ρ c), (h c).2⟩)
    (Cert.KernelIdeal.KerRun.run_named m ρ), ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6, a7⟩ := hagree c
  obtain ⟨e1, e2, e3, e4⟩ := edges_eq
  rw [a0, a1, a2, a3, a4, a5, a6, a7, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
